-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S512x512 : Shape := ⟨2, ![512, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_arg6 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S4096x1024 .f32) (main_arg1 : FVec F S512x512 .f32) (main_arg2 : FVec F S512x512 .f32) (main_arg3 : FVec F S512x512 .f32) (main_arg4 : FVec F S512x512 .f32) (main_arg5 : FVec F S512x512 .f32) (main_arg6 : FVec F S512x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4096x1024 : Shape := ⟨2, ![4096, 1024]⟩
abbrev S512x512 : Shape := ⟨2, ![512, 512]⟩
abbrev S1x512x512 : Shape := ⟨3, ![1, 512, 512]⟩
abbrev S2x512x512 : Shape := ⟨3, ![2, 512, 512]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1x512x512, .f32⟩
  | .hbm, ⟨8, _⟩ => ⟨S1x512x512, .f32⟩
  | .hbm, ⟨9, _⟩ => ⟨S2x512x512, .f32⟩
  | .hbm, ⟨10, _⟩ => ⟨S1x512x512, .f32⟩
  | .hbm, ⟨11, _⟩ => ⟨S1x512x512, .f32⟩
  | .hbm, ⟨12, _⟩ => ⟨S2x512x512, .f32⟩
  | .hbm, ⟨13, _⟩ => ⟨S1x512x512, .f32⟩
  | .hbm, ⟨14, _⟩ => ⟨S1x512x512, .f32⟩
  | .hbm, ⟨15, _⟩ => ⟨S2x512x512, .f32⟩
  | .hbm, ⟨16, _⟩ => ⟨S2x512x512, .f32⟩
  | .hbm, ⟨17, _⟩ => ⟨S4096x1024, .bf16⟩
  | .hbm, ⟨18, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512x512, .f32⟩
  | .local _ .vmem, ⟨13, _⟩ => ⟨S512x512, .f32⟩
  | .local _ .vmem, ⟨14, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  packedbf16_S512x512_S512x512_0_0 : (Rect.unit (s := S512x512) ![0, 0] S512x512.size inb_S512x512_S512x512_0_0).PackedRows (EltTy.packing .bf16)
  shapeCasts_S512x512_S1x512x512 : S512x512.ShapeCasts S1x512x512
  dot_S512x512_S512x512_S512x512_1_1_0_0_n_n_wf : DotDims.WF S512x512 S512x512 S512x512 [1] [1] [0] [0] [] []
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x1024.size a
  hwx0_0 : ∀ i : grid0.Coords, EltTy.bits .f32 = 32 ∨ (Rect.block (s := S4096x1024) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .f32 = 32 ∨ (Rect.block (s := S2x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .f32 = 32 ∨ (Rect.block (s := S2x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x1024.size a
  hwx0_5 : ∀ i : grid0.Coords, EltTy.bits .bf16 = 32 ∨ (Rect.block (s := S4096x1024) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x1024.size a
  hwx1_0 : ∀ i : grid1.Coords, EltTy.bits .bf16 = 32 ∨ (Rect.block (s := S4096x1024) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S2x512x512.size a
  hwx1_1 : ∀ i : grid1.Coords, EltTy.bits .f32 = 32 ∨ (Rect.block (s := S2x512x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x1024.size a
  hwx1_2 : ∀ i : grid1.Coords, EltTy.bits .f32 = 32 ∨ (Rect.block (s := S4096x1024) S512x512.size (cc1_transform_2 i) (hinb1_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

abbrev win1_0 : Pipeline.Window sig grid1 :=
  Pipeline.Window.ofSpec (Memref.whole main_v9_1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S1x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S512x512 : Shape := ⟨2, ![512, 512]⟩
abbrev S1024x4096 : Shape := ⟨2, ![1024, 4096]⟩
abbrev S512x4096 : Shape := ⟨2, ![512, 4096]⟩
abbrev S4096x4096 : Shape := ⟨2, ![4096, 4096]⟩
abbrev S4096x512 : Shape := ⟨2, ![4096, 512]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1024x4096, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S4096x4096, .f32⟩
  | .hbm, ⟨14, _⟩ => ⟨S4096x512, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S4096x4096, .f32⟩
  | .hbm, ⟨19, _⟩ => ⟨S4096x512, .f32⟩
  | .hbm, ⟨20, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S1024x4096_S512x4096_0_0 : S1024x4096.Slices ![0, 0] S512x4096
  slices_S1024x4096_S512x4096_512_0 : S1024x4096.Slices ![512, 0] S512x4096
  concatenates_S4096x512_S4096x512_S4096x1024_d1 : Shape.Concatenates [S4096x512, S4096x512] S4096x1024 1
  dot_S512x512_S512x4096_S512x4096_1_0_0_1_n_n_wf : DotDims.WF S512x512 S512x4096 S512x4096 [1] [0] [0] [1] [] []
  dot_S512x4096_S512x4096_S4096x4096_0_0_1_1_n_n_wf : DotDims.WF S512x4096 S512x4096 S4096x4096 [0] [0] [1] [1] [] []
  dot_S4096x4096_S512x4096_S4096x512_1_1_0_0_n_n_wf : DotDims.WF S4096x4096 S512x4096 S4096x512 [1] [1] [0] [0] [] []

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf
def dot_S4096x4096_S512x4096_S4096x512_1_1_0_0_n_n : DotDims S4096x4096 S512x4096 S4096x512 where
  lhsContracting := [1]
  rhsContracting := [1]
  lhsNonContracting := [0]
  rhsNonContracting := [0]
  lhsBatch := []
  rhsBatch := []
  wf := dot_S4096x4096_S512x4096_S4096x512_1_1_0_0_n_n_wf

class Facts : Prop extends Facts₀ where

variable [Facts]
-- ==== Proof.Bits.Grid.lean ====
/-
  Region 0 (the projection kernel, grid 2 heads × 8 row tiles, point t = head·8 + tile) and region 1 (the output
  kernel): where the first kernel's two conditionals hold on the grid, where its conditionally stored output window is
  idle, and the names of the staging memrefs the bodies are called with.
-/
import proofs.«138260_j15470472200192_2_alg».proof.Proof.Gen.Kernel.Launch
import proofs.«138260_j15470472200192_2_alg».proof.Proof.Gen.Kernel.Skeleton
import proofs.«138260_j15470472200192_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first kernel's conditionals over the grid -/

/-- "This is the head's first row tile": the accumulator is reset. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the head's last row tile": the accumulator is copied to the output window. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_5 : ∀ t : Fin cfg0.N, cfg0.idle 5 (grid0.coords t) = false := by decide +kernel
/-- The accumulated-product window is stored only at a head's last tile: idle and not written back elsewhere. -/
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem live0_4 : ∀ t : Fin cfg0.N, condLast (grid0.coords t) → cfg0.idle 4 (grid0.coords t) = false := by decide +kernel

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-! ## The memrefs the bodies are called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev accM : Memref sig .tc .vmem S512x512 .f32 := Memref.whole cc0_scratch0

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)

/-! ## The whole-buffer rectangles of the bodies' accesses -/

abbrev r2 : Rect S512x512 := Rect.unit (s := S512x512) ![0, 0] S512x512.size inb_S512x512_S512x512_0_0
abbrev r3 : Rect S1x512x512 := Rect.unit (s := S1x512x512) ![0, 0, 0] S1x512x512.size inb_S1x512x512_S1x512x512_0_0_0

theorem cover2 {φ : EltTy} (p0 : S512x512.Idx → Elt F φ) (y : S512x512.Idx) :
    ∃ pc ∈ ([⟨r2, p0⟩] : List (View.Piece (Elt F) S512x512 φ)), y ∈ pc.1.set :=
  View.cover_of_tiled [⟨r2, p0⟩] S512x512.size (by rfl) y
theorem cover3 {φ : EltTy} (p0 : S1x512x512.Idx → Elt F φ) (y : S1x512x512.Idx) :
    ∃ pc ∈ ([⟨r3, p0⟩] : List (View.Piece (Elt F) S1x512x512 φ)), y ∈ pc.1.set :=
  View.cover_of_tiled [⟨r3, p0⟩] S1x512x512.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-buffer rectangle, made last, is what the buffer reads back as, whatever was stored before. -/
theorem read_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ fun y => ⟨_, List.mem_cons_self .., ?_⟩).trans (View.canon_cons_unit_zero h inb w L)
  subst h
  show y ∈ (Rect.whole S).set
  rw [Rect.set_whole]; exact Finset.mem_univ y

/-- The scoped buffers of the core that are neither a staging buffer nor the accumulator of region 0 (the second
    kernel's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands region 0 beside its windows: the accumulator at some contents, the other scoped buffers, the
    generator register. -/
theorem PhiA0_eq (c : Dev nD) :
    (Pipeline.ΦA spec0 c : sProp 𝕄)
      = iprop(((∃ d, owns (c : Thread nD τ) accM fullShare d) ∗ rest0 c) ∗ (∃ r, prngReg c r)) := by
  unfold Pipeline.ΦA rest0; rw [scopedRest0_eq]; simp only [accM, owns_whole]; rfl

end Cert.Kernel.Fr

end
-- ==== Proof.Bits.Data.lean ====
/-
  The proof data of the two pipelined regions, at the contents `V` a region finds the TensorCore's buffers holding.

  Region 0, point t = head·8 + tile: the accumulator after the point is this tile's Kᵀ·V product added to zero (a
  head's first tile) or to what the point before left; the first output window's buffer holds the accumulator (it is
  stored, and written back, only at a head's last tile), the second the tile's Q projection. Region 1: the output
  window's buffer holds the product of the point's Q tile with the head's accumulated matrix.
-/
import proofs.«138260_j15470472200192_2_alg».proof.Proof.Bits.Grid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`. -/
def accAt (c : Dev nD) : (n : ℕ) → n < cfg0.N → Vec F S512x512 .f32
  | 0, hn => k0_pay4 (iblk0 V c 0 ⟨0, hn⟩) (iblk0 V c 2 ⟨0, hn⟩) (iblk0 V c 3 ⟨0, hn⟩) k0_pay2
  | n + 1, hn => k0_pay4 (iblk0 V c 0 ⟨n + 1, hn⟩) (iblk0 V c 2 ⟨n + 1, hn⟩) (iblk0 V c 3 ⟨n + 1, hn⟩)
      (if (n + 1) % 8 = 0 then k0_pay2 else accAt c n (Nat.lt_of_succ_lt hn))

/-- At a head's first tile the product is added to zero. -/
theorem accAt_first (c : Dev nD) (t : Fin cfg0.N) (h : t.val % 8 = 0) :
    accAt V c t.val t.isLt = k0_pay4 (iblk0 V c 0 t) (iblk0 V c 2 t) (iblk0 V c 3 t) k0_pay2 := by
  obtain ⟨n, hn⟩ := t
  cases n with
  | zero => rfl
  | succ n => exact congrArg _ (if_pos h)

/-- At a later tile it is added to what the point before left. -/
theorem accAt_next (c : Dev nD) (t : Fin cfg0.N) (h : ¬t.val % 8 = 0) :
    accAt V c t.val t.isLt = k0_pay4 (iblk0 V c 0 t) (iblk0 V c 2 t) (iblk0 V c 3 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The region's invariant before position `n`: before the first point what the launch hands it (the accumulator at
    anything); afterwards the accumulator at what the point before left, the other scoped buffers, the generator register. -/
def PhiS (c : Dev nD) : (n : ℕ) → n ≤ cfg0.N → sProp 𝕄
  | 0, _ => Pipeline.ΦA spec0 c
  | n + 1, hn => iprop((owns (c : Thread nD τ) accM fullShare (accAt V c n hn) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accM fullShare (accAt V c n hn) ∗ rest0 c) ∗ (∃ r, prngReg c r)) := rfl

theorem PhiS_pos (c : Dev nD) (n : ℕ) (h : n ≤ cfg0.N) (hz : n ≠ 0) :
    PhiS V c n h = iprop((owns (c : Thread nD τ) accM fullShare (accAt V c (n - 1) (by omega)) ∗ rest0 c) ∗ (∃ r, prngReg c r)) := by
  cases n with
  | zero => exact absurd rfl hz
  | succ n => rfl

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (accAt V c t.val t.isLt)
    | ⟨5, _⟩ => k0_pay5 (iblk0 V c 0 t) (iblk0 V c 1 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (accAt V c t.val t.isLt) := by dsimp only [dat0]
theorem after0_5 (c : Dev nD) (t : Fin cfg0.N) : (dat0 V c).after 5 t = k0_pay5 (iblk0 V c 0 t) (iblk0 V c 1 t) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the class invariant (nothing is carried between points). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.Kernel.Fr

end
-- ==== Proof.Bits.KvRunFirst.lean ====
/-
  The projection kernel's body at a head's first row tile: the accumulator is zeroed, then the tile's Kᵀ·V product is added to it and stored back, and the tile's Q projection stored in the second output window.
-/
import proofs.«138260_j15470472200192_2_alg».proof.Proof.Bits.Grid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
theorem run_first (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : condFirst i) (hc1 : ¬condLast i)
    (x0 : Vec F S512x512 .f32) (x1 x2 x3 : Vec F S1x512x512 .f32)  (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (k0_pay5 x0 x1)
            ∗ owns (c : Thread nD τ) arg8 fullShare (k0_pay4 x0 x2 x3 k0_pay2)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  sl_unfold_run_names
  simp only [View.readCov_unit_zero (S := S512x512) _ hz2, View.readAt_eq_ld, harg2.read_unread, harg4.read_unread, harg5.read_unread, View.ld_unit_zero (S := S512x512) hz2, View.ld_unit_zero (S := S1x512x512) hz3]

end Cert.Kernel.Fr

end
-- ==== Proof.Bits.KvRunMid.lean ====
/-
  The projection kernel's body at a row tile that is neither a head's first nor its last: the accumulator is read, the tile's Kᵀ·V product added to it and stored back, and the tile's Q projection stored in the second output window.
-/
import proofs.«138260_j15470472200192_2_alg».proof.Proof.Bits.Grid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
theorem run_mid (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : ¬condFirst i) (hc1 : ¬condLast i)
    (x0 : Vec F S512x512 .f32) (x1 x2 x3 : Vec F S1x512x512 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (k0_pay5 x0 x1)
            ∗ owns (c : Thread nD τ) arg8 fullShare (k0_pay4 x0 x2 x3 xs)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  simp only [View.readAt_eq_ld, harg2.read_unread, harg4.read_unread, harg5.read_unread, harg8.read_unread, View.ld_unit_zero (S := S512x512) hz2, View.ld_unit_zero (S := S1x512x512) hz3]

end Cert.Kernel.Fr

end
-- ==== Proof.Bits.KvRunLast.lean ====
/-
  The projection kernel's body at a head's last row tile: the tile's Kᵀ·V product is added to the accumulator and stored back, the tile's Q projection stored in the second output window, and the finished accumulator copied into the first output window.
-/
import proofs.«138260_j15470472200192_2_alg».proof.Proof.Bits.Grid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
theorem run_last (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : ¬condFirst i) (hc1 : condLast i)
    (x0 : Vec F S512x512 .f32) (x1 x2 x3 : Vec F S1x512x512 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay4 x0 x2 x3 xs)) ∗ owns (c : Thread nD τ) arg7 fullShare (k0_pay5 x0 x1)
            ∗ owns (c : Thread nD τ) arg8 fullShare (k0_pay4 x0 x2 x3 xs)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_whole _ _ hz3 _ _ _).trans ?_
    sl_unfold_run_names
    simp only [View.readCov_unit_zero (S := S512x512) _ hz2, View.readAt_eq_ld, harg2.read_unread, harg4.read_unread, harg5.read_unread, harg8.read_unread, View.ld_unit_zero (S := S512x512) hz2, View.ld_unit_zero (S := S1x512x512) hz3]
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  simp only [View.readAt_eq_ld, harg2.read_unread, harg4.read_unread, harg5.read_unread, harg8.read_unread, View.ld_unit_zero (S := S512x512) hz2, View.ld_unit_zero (S := S1x512x512) hz3]

end Cert.Kernel.Fr

end
-- ==== Proof.Bits.Region0.lean ====
/-
  Region 0's body obligation: at every grid point the projection kernel's body, called on the windows' current staging
  buffers, takes the invariant before the point to the invariant after it. Which of the three control cases a point
  is in is read off the point's position among its head's eight row tiles.
-/
import proofs.«138260_j15470472200192_2_alg».proof.Proof.Bits.Data
import proofs.«138260_j15470472200192_2_alg».proof.Proof.Bits.KvRunFirst
import proofs.«138260_j15470472200192_2_alg».proof.Proof.Bits.KvRunMid
import proofs.«138260_j15470472200192_2_alg».proof.Proof.Bits.KvRunLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's current staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 5 t = owns (c : Thread nD τ) (ms0_5 t) fullShare ((dat0 V c).after 5 t) from by
    unfold Dat.leavesExact; rw [live0_5 t], after0_5]
  have hN : t.val < 16 := lt_of_lt_of_eq t.isLt (show cfg0.N = 16 from N_0)
  by_cases h0 : t.val % 8 = 0
  · have h1 : ¬t.val % 8 = 7 := by omega
    rw [Dat.leavesExact_idle (dat0 V c) 4 t (idle0_4 t (fun h => h1 ((hcondLast t).mp h))) (noFlush0_4 t (fun h => h1 ((hcondLast t).mp h)))]
    rw [accAt_first V c t h0]
    by_cases hz : t.val = 0
    · rw [PhiS_castSucc V c t, PhiS_zero V c _ _ hz, PhiA0_eq]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ (ms0_4 t) (hs0_4 t) _ _ _ _ ((hcondFirst t).mpr h0) (fun h => h1 ((hcondLast t).mp h))
        (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [H5]; · iexists _; iexact H5
      isplitl [HS]; · iexists _; iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ (ms0_4 t) (hs0_4 t) _ _ _ _ ((hcondFirst t).mpr h0) (fun h => h1 ((hcondLast t).mp h))
        (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [H5]; · iexists _; iexact H5
      isplitl [HS]; · iexists _; iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 4 t = owns (c : Thread nD τ) (ms0_4 t) fullShare ((dat0 V c).after 4 t) from by
        unfold Dat.leavesExact; rw [live0_4 t ((hcondLast t).mpr h1)], after0_4, accAt_next V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ (ms0_4 t) (hs0_4 t) _ _ _ _ (fun h => h0 ((hcondFirst t).mp h)) ((hcondLast t).mpr h1)
        (iblk0 V c 0 t) (iblk0 V c 1 t) (iblk0 V c 2 t) (iblk0 V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 4 t (idle0_4 t (fun h => h1 ((hcondLast t).mp h))) (noFlush0_4 t (fun h => h1 ((hcondLast t).mp h)))]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ (ms0_4 t) (hs0_4 t) _ _ _ _ (fun h => h0 ((hcondFirst t).mp h)) (fun h => h1 ((hcondLast t).mp h))
        (iblk0 V c 0 t) (iblk0 V c 1 t) (iblk0 V c 2 t) (iblk0 V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H5]; · iexists _; iexact H5
      isplitl [HS]; · iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hr⟩, Hg⟩
  isplitl [HS Hr]
  · isplitl [HS]; · iexists _; iexact HS
    iexact Hr
  iexact Hg

end Cert.Kernel.Fr

end
-- ==== Proof.Bits.QoRun.lean ====
/-
  The output kernel's body: the Q tile and the head's Kᵀ·V matrix are loaded, multiplied, and the product stored in the
  output window.
-/
import proofs.«138260_j15470472200192_2_alg».proof.Proof.Bits.Grid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
theorem run_qo (c : Dev nD) (i : grid1.Coords) (arg2 : Memref sig .tc .vmem S512x512 .bf16) (harg2 : arg2.IsWhole)
    (arg3 : Memref sig .tc .vmem S1x512x512 .f32) (harg3 : arg3.IsWhole) (arg4 : Memref sig .tc .vmem S512x512 .f32) (harg4 : arg4.IsWhole)
    (x0 : Vec F S512x512 .bf16) (x1 : Vec F S1x512x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__qo_kernel i arg2 harg2 arg3 harg3 arg4 harg4) K := by
  simp only [cc1__qo_kernel_eq_skeleton]; unfold cc1__qo_kernel_skel
  unfold owns
  iintro ⟨⟨%f0, %hf0, H0⟩, ⟨%f1, %hf1, H1⟩, ⟨%d4, %f4, -, H4⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  refine (read_last_whole _ _ hz2 _ _ _).trans ?_
  simp only [View.readAt_eq_ld, harg2.read_unread, harg3.read_unread, View.ld_unit_zero (S := S512x512) hz2, View.ld_unit_zero (S := S1x512x512) hz3]

end Cert.Kernel.Fr

end
-- ==== Proof.Bits.Region1.lean ====
/-
  Region 1 (the output kernel): at every grid point the body finds the point's Q tile and the head's accumulated
  matrix in its two input buffers (the matrix is fetched only at a head's first tile and stays in place afterwards)
  and leaves their product in the output window's buffer; nothing is carried from point to point.
-/
import proofs.«138260_j15470472200192_2_alg».proof.Proof.Bits.Data
import proofs.«138260_j15470472200192_2_alg».proof.Proof.Bits.QoRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The Q window's current buffer holds the point's Q tile. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The matrix window's buffer holds the head's matrix at every tile of the head, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_qo c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Bits.Main.lean ====
/-
  The whole run of @main: nine host operations that stack the six weight matrices into three [2, Dh, Dh] arrays, the
  projection kernel's region, the output kernel's region. The TensorCore's unscoped buffers are followed from the launch
  memory through the three segments; at the end every one of them is read back, so that the argument arrays are seen
  unchanged and the result array is named as what the second region's write-backs leave.
-/
import proofs.«138260_j15470472200192_2_alg».proof.Proof.Bits.Region0
import proofs.«138260_j15470472200192_2_alg».proof.Proof.Bits.Region1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No segment writes an argument -/

theorem hostOps0_fresh : (hostOps0 : List (HloOp τ sig (Elt F))).Forall fun op => op.fresh = ∅ := by
  simp only [List.Forall]; repeat' constructor

/-- A buffer none of the host operations writes is as launched when region 0 is entered. -/
theorem W1_of (c : Dev nD) (r : Ref sig .tc)
    (h : r ∉ ([main_v0, main_v1, main_v2, main_v3, main_v4, main_v5, main_v6, main_v7, main_v8] : List (Ref sig .tc))) :
    W1 m c (Proc.devRef .tc r) = W0 m c (Proc.devRef .tc r) :=
  StableHlo.after_of_forall_not_mem (b := Proc.devRef .tc r) _ _ (List.forall_iff_forall_mem.mp (by
    simp only [hostOps0, List.Forall, StableHlo.unary_writes, StableHlo.binary_writes, Finset.mem_singleton]
    simp only [List.mem_cons, List.mem_nil_iff, or_false, not_or] at h
    obtain ⟨h0, h1, h2, h3, h4, h5, h6, h7, h8⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7, StableHlo.devRef_ne_of_ne h8⟩))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The result array at the end is what region 1's write-backs leave. -/
theorem W3_main_v10 (c : Dev nD) : W3 m c (Proc.devRef .tc main_v10) = (dat1 (V2 m) c).arrAt 2 cfg1.N := W3_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm 0).1 ∗ Pipeline.scopedRest (Pipeline.pin (pcfgs (F := F)) adm 0).spec c) ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer of each core holds what the fold through the three segments says. -/
theorem run_all : θ_run defs (onTc (τ := τ) (main (F := F))) ⟨m, fun _ => 0, ρ⟩ (fun r => ∀ (c : Dev nD),
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c),
      (h c _ (mem_uc main_arg4 (by decide))).trans (W3_main_arg4 m c), (h c _ (mem_uc main_arg5 (by decide))).trans (W3_main_arg5 m c),
      (h c _ (mem_uc main_arg6 (by decide))).trans (W3_main_arg6 m c)⟩) (run_all m ρ)

/-- The run with the result named: the result array ends at what region 1's write-backs leave, the arguments as launched. -/
theorem run_value : θ_run defs (onTc (τ := τ) (main (F := F))) ⟨m, fun _ => 0, ρ⟩ (fun r => ∀ c : Dev nD,
      r.2.mem ((c.tc : Thread nD τ).loc main_v10) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (W3_main_v10 m c),
      (h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c),
      (h c _ (mem_uc main_arg4 (by decide))).trans (W3_main_arg4 m c), (h c _ (mem_uc main_arg5 (by decide))).trans (W3_main_arg5 m c),
      (h c _ (mem_uc main_arg6 (by decide))).trans (W3_main_arg6 m c)⟩) (run_all m ρ)

end Cert.Kernel.Fr

end
-- ==== Proof.Grid.lean ====
/-
  Region 0 (the projection kernel, grid 2 heads × 8 row tiles, point t = head·8 + tile) and region 1 (the output
  kernel): where the first kernel's two conditionals hold on the grid, where its conditionally stored output window is
  idle, and the names of the staging memrefs the bodies are called with.
-/
import proofs.«138260_j15470472200192_2_alg».proof.Proof.Gen.KernelIdeal.Launch
import proofs.«138260_j15470472200192_2_alg».proof.Proof.Gen.KernelIdeal.Skeleton
import proofs.«138260_j15470472200192_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first kernel's conditionals over the grid -/

/-- "This is the head's first row tile": the accumulator is reset. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the head's last row tile": the accumulator is copied to the output window. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_5 : ∀ t : Fin cfg0.N, cfg0.idle 5 (grid0.coords t) = false := by decide +kernel
/-- The accumulated-product window is stored only at a head's last tile: idle and not written back elsewhere. -/
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem live0_4 : ∀ t : Fin cfg0.N, condLast (grid0.coords t) → cfg0.idle 4 (grid0.coords t) = false := by decide +kernel

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-! ## The memrefs the bodies are called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev accM : Memref sig .tc .vmem S512x512 .f32 := Memref.whole cc0_scratch0

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)

/-! ## The whole-buffer rectangles of the bodies' accesses -/

abbrev r2 : Rect S512x512 := Rect.unit (s := S512x512) ![0, 0] S512x512.size inb_S512x512_S512x512_0_0
abbrev r3 : Rect S1x512x512 := Rect.unit (s := S1x512x512) ![0, 0, 0] S1x512x512.size inb_S1x512x512_S1x512x512_0_0_0

theorem cover2 {φ : EltTy} (p0 : S512x512.Idx → Elt F φ) (y : S512x512.Idx) :
    ∃ pc ∈ ([⟨r2, p0⟩] : List (View.Piece (Elt F) S512x512 φ)), y ∈ pc.1.set :=
  View.cover_of_tiled [⟨r2, p0⟩] S512x512.size (by rfl) y
theorem cover3 {φ : EltTy} (p0 : S1x512x512.Idx → Elt F φ) (y : S1x512x512.Idx) :
    ∃ pc ∈ ([⟨r3, p0⟩] : List (View.Piece (Elt F) S1x512x512 φ)), y ∈ pc.1.set :=
  View.cover_of_tiled [⟨r3, p0⟩] S1x512x512.size (by rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-buffer rectangle, made last, is what the buffer reads back as, whatever was stored before. -/
theorem read_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  refine (View.read_writes_eq_canon v f _ fun y => ⟨_, List.mem_cons_self .., ?_⟩).trans (View.canon_cons_unit_zero h inb w L)
  subst h
  show y ∈ (Rect.whole S).set
  rw [Rect.set_whole]; exact Finset.mem_univ y

/-- The scoped buffers of the core that are neither a staging buffer nor the accumulator of region 0 (the second
    kernel's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands region 0 beside its windows: the accumulator at some contents, the other scoped buffers, the
    generator register. -/
theorem PhiA0_eq (c : Dev nD) :
    (Pipeline.ΦA spec0 c : sProp 𝕄)
      = iprop(((∃ d, owns (c : Thread nD τ) accM fullShare d) ∗ rest0 c) ∗ (∃ r, prngReg c r)) := by
  unfold Pipeline.ΦA rest0; rw [scopedRest0_eq]; simp only [accM, owns_whole]; rfl

end Cert.KernelIdeal.Fr

end
-- ==== Proof.Data.lean ====
/-
  The proof data of the two pipelined regions, at the contents `V` a region finds the TensorCore's buffers holding.

  Region 0, point t = head·8 + tile: the accumulator after the point is this tile's Kᵀ·V product added to zero (a
  head's first tile) or to what the point before left; the first output window's buffer holds the accumulator (it is
  stored, and written back, only at a head's last tile), the second the tile's Q projection. Region 1: the output
  window's buffer holds the product of the point's Q tile with the head's accumulated matrix.
-/
import proofs.«138260_j15470472200192_2_alg».proof.Proof.Grid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`. -/
def accAt (c : Dev nD) : (n : ℕ) → n < cfg0.N → Vec F S512x512 .f32
  | 0, hn => k0_pay4 (iblk0 V c 0 ⟨0, hn⟩) (iblk0 V c 2 ⟨0, hn⟩) (iblk0 V c 3 ⟨0, hn⟩) k0_pay2
  | n + 1, hn => k0_pay4 (iblk0 V c 0 ⟨n + 1, hn⟩) (iblk0 V c 2 ⟨n + 1, hn⟩) (iblk0 V c 3 ⟨n + 1, hn⟩)
      (if (n + 1) % 8 = 0 then k0_pay2 else accAt c n (Nat.lt_of_succ_lt hn))

/-- At a head's first tile the product is added to zero. -/
theorem accAt_first (c : Dev nD) (t : Fin cfg0.N) (h : t.val % 8 = 0) :
    accAt V c t.val t.isLt = k0_pay4 (iblk0 V c 0 t) (iblk0 V c 2 t) (iblk0 V c 3 t) k0_pay2 := by
  obtain ⟨n, hn⟩ := t
  cases n with
  | zero => rfl
  | succ n => exact congrArg _ (if_pos h)

/-- At a later tile it is added to what the point before left. -/
theorem accAt_next (c : Dev nD) (t : Fin cfg0.N) (h : ¬t.val % 8 = 0) :
    accAt V c t.val t.isLt = k0_pay4 (iblk0 V c 0 t) (iblk0 V c 2 t) (iblk0 V c 3 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-- The region's invariant before position `n`: before the first point what the launch hands it (the accumulator at
    anything); afterwards the accumulator at what the point before left, the other scoped buffers, the generator register. -/
def PhiS (c : Dev nD) : (n : ℕ) → n ≤ cfg0.N → sProp 𝕄
  | 0, _ => Pipeline.ΦA spec0 c
  | n + 1, hn => iprop((owns (c : Thread nD τ) accM fullShare (accAt V c n hn) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accM fullShare (accAt V c n hn) ∗ rest0 c) ∗ (∃ r, prngReg c r)) := rfl

theorem PhiS_pos (c : Dev nD) (n : ℕ) (h : n ≤ cfg0.N) (hz : n ≠ 0) :
    PhiS V c n h = iprop((owns (c : Thread nD τ) accM fullShare (accAt V c (n - 1) (by omega)) ∗ rest0 c) ∗ (∃ r, prngReg c r)) := by
  cases n with
  | zero => exact absurd rfl hz
  | succ n => rfl

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (accAt V c t.val t.isLt)
    | ⟨5, _⟩ => k0_pay5 (iblk0 V c 0 t) (iblk0 V c 1 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (accAt V c t.val t.isLt) := by dsimp only [dat0]
theorem after0_5 (c : Dev nD) (t : Fin cfg0.N) : (dat0 V c).after 5 t = k0_pay5 (iblk0 V c 0 t) (iblk0 V c 1 t) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the class invariant (nothing is carried between points). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.KernelIdeal.Fr

end
-- ==== Proof.KvRunFirst.lean ====
/-
  The projection kernel's body at a head's first row tile: the accumulator is zeroed, then the tile's Kᵀ·V product is added to it and stored back, and the tile's Q projection stored in the second output window.
-/
import proofs.«138260_j15470472200192_2_alg».proof.Proof.Grid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
theorem run_first (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : condFirst i) (hc1 : ¬condLast i)
    (x0 : Vec F S512x512 .f32) (x1 x2 x3 : Vec F S1x512x512 .f32)  (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (k0_pay5 x0 x1)
            ∗ owns (c : Thread nD τ) arg8 fullShare (k0_pay4 x0 x2 x3 k0_pay2)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  sl_unfold_run_names
  simp only [View.readCov_unit_zero (S := S512x512) _ hz2, View.readAt_eq_ld, harg2.read_unread, harg4.read_unread, harg5.read_unread, View.ld_unit_zero (S := S512x512) hz2, View.ld_unit_zero (S := S1x512x512) hz3]

end Cert.KernelIdeal.Fr

end
-- ==== Proof.KvRunMid.lean ====
/-
  The projection kernel's body at a row tile that is neither a head's first nor its last: the accumulator is read, the tile's Kᵀ·V product added to it and stored back, and the tile's Q projection stored in the second output window.
-/
import proofs.«138260_j15470472200192_2_alg».proof.Proof.Grid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
theorem run_mid (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : ¬condFirst i) (hc1 : ¬condLast i)
    (x0 : Vec F S512x512 .f32) (x1 x2 x3 : Vec F S1x512x512 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (k0_pay5 x0 x1)
            ∗ owns (c : Thread nD τ) arg8 fullShare (k0_pay4 x0 x2 x3 xs)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  simp only [View.readAt_eq_ld, harg2.read_unread, harg4.read_unread, harg5.read_unread, harg8.read_unread, View.ld_unit_zero (S := S512x512) hz2, View.ld_unit_zero (S := S1x512x512) hz3]

end Cert.KernelIdeal.Fr

end
-- ==== Proof.KvRunLast.lean ====
/-
  The projection kernel's body at a head's last row tile: the tile's Kᵀ·V product is added to the accumulator and stored back, the tile's Q projection stored in the second output window, and the finished accumulator copied into the first output window.
-/
import proofs.«138260_j15470472200192_2_alg».proof.Proof.Grid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
theorem run_last (c : Dev nD) (i : grid0.Coords) (arg2 : Memref sig .tc .vmem S512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .f32) (harg5 : arg5.IsWhole) (arg6 : Memref sig .tc .vmem S1x512x512 .f32) (harg6 : arg6.IsWhole)
    (arg7 : Memref sig .tc .vmem S512x512 .bf16) (harg7 : arg7.IsWhole) (arg8 : Memref sig .tc .vmem S512x512 .f32) (harg8 : arg8.IsWhole)
    (hc0 : ¬condFirst i) (hc1 : condLast i)
    (x0 : Vec F S512x512 .f32) (x1 x2 x3 : Vec F S1x512x512 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay4 x0 x2 x3 xs)) ∗ owns (c : Thread nD τ) arg7 fullShare (k0_pay5 x0 x1)
            ∗ owns (c : Thread nD τ) arg8 fullShare (k0_pay4 x0 x2 x3 xs)) -∗ K ⟨⟩))
      ⊢ wp frame (wpE (defs₀ (F := F)) Variants.none c none) E (cc0__kv_kernel i arg2 harg2 arg3 harg3 arg4 harg4 arg5 harg5 arg6 harg6 arg7 harg7 arg8 harg8) K := by
  simp only [cc0__kv_kernel_eq_skeleton]; unfold cc0__kv_kernel_skel
  simp only [k0_part1_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_last_whole _ _ hz3 _ _ _).trans ?_
    sl_unfold_run_names
    simp only [View.readCov_unit_zero (S := S512x512) _ hz2, View.readAt_eq_ld, harg2.read_unread, harg4.read_unread, harg5.read_unread, harg8.read_unread, View.ld_unit_zero (S := S512x512) hz2, View.ld_unit_zero (S := S1x512x512) hz3]
  isplitl [H7]
  · iexists _; isplitr
    swap; · iexact H7
    ipureintro
    refine (read_last_whole _ _ hz2 _ _ _).trans ?_
    simp only [View.readAt_eq_ld, harg2.read_unread, harg3.read_unread, View.ld_unit_zero (S := S512x512) hz2, View.ld_unit_zero (S := S1x512x512) hz3]
  iexists _; isplitr
  swap; · iexact H8
  ipureintro
  refine (read_last_whole _ _ hz2 _ _ _).trans ?_
  simp only [View.readAt_eq_ld, harg2.read_unread, harg4.read_unread, harg5.read_unread, harg8.read_unread, View.ld_unit_zero (S := S512x512) hz2, View.ld_unit_zero (S := S1x512x512) hz3]

end Cert.KernelIdeal.Fr

end
-- ==== Proof.Region0.lean ====
/-
  Region 0's body obligation: at every grid point the projection kernel's body, called on the windows' current staging
  buffers, takes the invariant before the point to the invariant after it. Which of the three control cases a point
  is in is read off the point's position among its head's eight row tiles.
-/
import proofs.«138260_j15470472200192_2_alg».proof.Proof.Data
import proofs.«138260_j15470472200192_2_alg».proof.Proof.KvRunFirst
import proofs.«138260_j15470472200192_2_alg».proof.Proof.KvRunMid
import proofs.«138260_j15470472200192_2_alg».proof.Proof.KvRunLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's current staging buffer holds its block, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 5 t = owns (c : Thread nD τ) (ms0_5 t) fullShare ((dat0 V c).after 5 t) from by
    unfold Dat.leavesExact; rw [live0_5 t], after0_5]
  have hN : t.val < 16 := lt_of_lt_of_eq t.isLt (show cfg0.N = 16 from N_0)
  by_cases h0 : t.val % 8 = 0
  · have h1 : ¬t.val % 8 = 7 := by omega
    rw [Dat.leavesExact_idle (dat0 V c) 4 t (idle0_4 t (fun h => h1 ((hcondLast t).mp h))) (noFlush0_4 t (fun h => h1 ((hcondLast t).mp h)))]
    rw [accAt_first V c t h0]
    by_cases hz : t.val = 0
    · rw [PhiS_castSucc V c t, PhiS_zero V c _ _ hz, PhiA0_eq]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ (ms0_4 t) (hs0_4 t) _ _ _ _ ((hcondFirst t).mpr h0) (fun h => h1 ((hcondLast t).mp h))
        (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [H5]; · iexists _; iexact H5
      isplitl [HS]; · iexists _; iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ (ms0_4 t) (hs0_4 t) _ _ _ _ ((hcondFirst t).mpr h0) (fun h => h1 ((hcondLast t).mp h))
        (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [H5]; · iexists _; iexact H5
      isplitl [HS]; · iexists _; iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 4 t = owns (c : Thread nD τ) (ms0_4 t) fullShare ((dat0 V c).after 4 t) from by
        unfold Dat.leavesExact; rw [live0_4 t ((hcondLast t).mpr h1)], after0_4, accAt_next V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ (ms0_4 t) (hs0_4 t) _ _ _ _ (fun h => h0 ((hcondFirst t).mp h)) ((hcondLast t).mpr h1)
        (iblk0 V c 0 t) (iblk0 V c 1 t) (iblk0 V c 2 t) (iblk0 V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 4 t (idle0_4 t (fun h => h1 ((hcondLast t).mp h))) (noFlush0_4 t (fun h => h1 ((hcondLast t).mp h)))]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ (ms0_4 t) (hs0_4 t) _ _ _ _ (fun h => h0 ((hcondFirst t).mp h)) (fun h => h1 ((hcondLast t).mp h))
        (iblk0 V c 0 t) (iblk0 V c 1 t) (iblk0 V c 2 t) (iblk0 V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H5]; · iexists _; iexact H5
      isplitl [HS]; · iexact HS
      iintro ⟨H0, H1, H2, H3, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hr⟩, Hg⟩
  isplitl [HS Hr]
  · isplitl [HS]; · iexists _; iexact HS
    iexact Hr
  iexact Hg

end Cert.KernelIdeal.Fr

end
-- ==== Proof.QoRun.lean ====
/-
  The output kernel's body: the Q tile and the head's Kᵀ·V matrix are loaded, multiplied, and the product stored in the
  output window.
-/
import proofs.«138260_j15470472200192_2_alg».proof.Proof.Grid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
theorem run_qo (c : Dev nD) (i : grid1.Coords) (arg2 : Memref sig .tc .vmem S512x512 .bf16) (harg2 : arg2.IsWhole)
    (arg3 : Memref sig .tc .vmem S1x512x512 .f32) (harg3 : arg3.IsWhole) (arg4 : Memref sig .tc .vmem S512x512 .f32) (harg4 : arg4.IsWhole)
    (x0 : Vec F S512x512 .bf16) (x1 : Vec F S1x512x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__qo_kernel i arg2 harg2 arg3 harg3 arg4 harg4) K := by
  simp only [cc1__qo_kernel_eq_skeleton]; unfold cc1__qo_kernel_skel
  unfold owns
  iintro ⟨⟨%f0, %hf0, H0⟩, ⟨%f1, %hf1, H1⟩, ⟨%d4, %f4, -, H4⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  refine (read_last_whole _ _ hz2 _ _ _).trans ?_
  simp only [View.readAt_eq_ld, harg2.read_unread, harg3.read_unread, View.ld_unit_zero (S := S512x512) hz2, View.ld_unit_zero (S := S1x512x512) hz3]

end Cert.KernelIdeal.Fr

end
-- ==== Proof.Region1.lean ====
/-
  Region 1 (the output kernel): at every grid point the body finds the point's Q tile and the head's accumulated
  matrix in its two input buffers (the matrix is fetched only at a head's first tile and stays in place afterwards)
  and leaves their product in the output window's buffer; nothing is carried from point to point.
-/
import proofs.«138260_j15470472200192_2_alg».proof.Proof.Data
import proofs.«138260_j15470472200192_2_alg».proof.Proof.QoRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The Q window's current buffer holds the point's Q tile. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The matrix window's buffer holds the head's matrix at every tile of the head, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_qo c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Main.lean ====
/-
  The whole run of @main: nine host operations that stack the six weight matrices into three [2, Dh, Dh] arrays, the
  projection kernel's region, the output kernel's region. The TensorCore's unscoped buffers are followed from the launch
  memory through the three segments; at the end every one of them is read back, so that the argument arrays are seen
  unchanged and the result array is named as what the second region's write-backs leave.
-/
import proofs.«138260_j15470472200192_2_alg».proof.Proof.Region0
import proofs.«138260_j15470472200192_2_alg».proof.Proof.Region1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No segment writes an argument -/

theorem hostOps0_fresh : (hostOps0 : List (HloOp τ sig (Elt F))).Forall fun op => op.fresh = ∅ := by
  simp only [List.Forall]; repeat' constructor

/-- A buffer none of the host operations writes is as launched when region 0 is entered. -/
theorem W1_of (c : Dev nD) (r : Ref sig .tc)
    (h : r ∉ ([main_v0, main_v1, main_v2, main_v3, main_v4, main_v5, main_v6, main_v7, main_v8] : List (Ref sig .tc))) :
    W1 m c (Proc.devRef .tc r) = W0 m c (Proc.devRef .tc r) :=
  StableHlo.after_of_forall_not_mem (b := Proc.devRef .tc r) _ _ (List.forall_iff_forall_mem.mp (by
    simp only [hostOps0, List.Forall, StableHlo.unary_writes, StableHlo.binary_writes, Finset.mem_singleton]
    simp only [List.mem_cons, List.mem_nil_iff, or_false, not_or] at h
    obtain ⟨h0, h1, h2, h3, h4, h5, h6, h7, h8⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7, StableHlo.devRef_ne_of_ne h8⟩))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The result array at the end is what region 1's write-backs leave. -/
theorem W3_main_v10 (c : Dev nD) : W3 m c (Proc.devRef .tc main_v10) = (dat1 (V2 m) c).arrAt 2 cfg1.N := W3_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm 0).1 ∗ Pipeline.scopedRest (Pipeline.pin (pcfgs (F := F)) adm 0).spec c) ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer of each core holds what the fold through the three segments says. -/
theorem run_all : θ_run defs (onTc (τ := τ) (main (F := F))) ⟨m, fun _ => 0, ρ⟩ (fun r => ∀ (c : Dev nD),
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c),
      (h c _ (mem_uc main_arg4 (by decide))).trans (W3_main_arg4 m c), (h c _ (mem_uc main_arg5 (by decide))).trans (W3_main_arg5 m c),
      (h c _ (mem_uc main_arg6 (by decide))).trans (W3_main_arg6 m c)⟩) (run_all m ρ)

/-- The run with the result named: the result array ends at what region 1's write-backs leave, the arguments as launched. -/
theorem run_value : θ_run defs (onTc (τ := τ) (main (F := F))) ⟨m, fun _ => 0, ρ⟩ (fun r => ∀ c : Dev nD,
      r.2.mem ((c.tc : Thread nD τ).loc main_v10) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (W3_main_v10 m c),
      (h c _ (mem_uc main_arg0 (by decide))).trans (W3_main_arg0 m c), (h c _ (mem_uc main_arg1 (by decide))).trans (W3_main_arg1 m c),
      (h c _ (mem_uc main_arg2 (by decide))).trans (W3_main_arg2 m c), (h c _ (mem_uc main_arg3 (by decide))).trans (W3_main_arg3 m c),
      (h c _ (mem_uc main_arg4 (by decide))).trans (W3_main_arg4 m c), (h c _ (mem_uc main_arg5 (by decide))).trans (W3_main_arg5 m c),
      (h c _ (mem_uc main_arg6 (by decide))).trans (W3_main_arg6 m c)⟩) (run_all m ρ)

end Cert.KernelIdeal.Fr

end
-- ==== Proof.LibNatRead.lean ====
/-
  Reading an array at natural-number coordinates.

  An entry of a rank-one, rank-two or rank-three array is addressed by a tuple of bounded coordinates; tile arithmetic
  (block index times block size plus offset) is easier to state over plain natural numbers. `at1`, `at2`, `at3`
  read the array at natural coordinates, giving zero outside the extents, and each entry IS the reading at the values
  of its coordinates (`apply_eq_at1` … `apply_eq_at3`), so an index equation becomes one equation of naturals per axis.
-/
import Idealize.ShloMosaic.Lib.ValueIdx

noncomputable section

namespace Cert.Lib.NatRead

open Idealize.ShloMosaic Idealize.ShloMosaic.ValueIdx

variable {α : Type} [Zero α]

/-- A length-`a` vector read at a natural position: its entry when in range, zero otherwise. -/
def at1 {a : ℕ} (A : (⟨1, ![a]⟩ : Shape).Idx → α) (r : ℕ) : α :=
  if h : r < a then A (ix1 ⟨r, h⟩) else 0

theorem at1_of_lt {a : ℕ} (A : (⟨1, ![a]⟩ : Shape).Idx → α) {r : ℕ} (hr : r < a) : at1 A r = A (ix1 ⟨r, hr⟩) := dif_pos hr

/-- An entry of a vector is the reading at the value of its coordinate. -/
theorem apply_eq_at1 {a : ℕ} (A : (⟨1, ![a]⟩ : Shape).Idx → α) (j : (⟨1, ![a]⟩ : Shape).Idx) {r : ℕ} (hr : (j 0).val = r) :
    A j = at1 A r := by
  subst hr
  rw [at1_of_lt A (j 0).isLt]
  exact congrArg A (eq_ix1 j)

/-- An `[a, b]` array read at natural coordinates: its entry when both are in range, zero otherwise. -/
def at2 {a b : ℕ} (A : (⟨2, ![a, b]⟩ : Shape).Idx → α) (r c : ℕ) : α :=
  if h : r < a ∧ c < b then A (ix2 ⟨r, h.1⟩ ⟨c, h.2⟩) else 0

theorem at2_of_lt {a b : ℕ} (A : (⟨2, ![a, b]⟩ : Shape).Idx → α) {r c : ℕ} (hr : r < a) (hc : c < b) :
    at2 A r c = A (ix2 ⟨r, hr⟩ ⟨c, hc⟩) := dif_pos ⟨hr, hc⟩

/-- An entry of a matrix is the reading at the values of its two coordinates. -/
theorem apply_eq_at2 {a b : ℕ} (A : (⟨2, ![a, b]⟩ : Shape).Idx → α) (j : (⟨2, ![a, b]⟩ : Shape).Idx) {r c : ℕ}
    (hr : (j 0).val = r) (hc : (j 1).val = c) : A j = at2 A r c := by
  subst hr hc
  rw [at2_of_lt A (idx2_lt0 j) (idx2_lt1 j)]
  exact congrArg A (eq_ix2 j)

/-- An `[a, b, c]` array read at natural coordinates: its entry when all three are in range, zero otherwise. -/
def at3 {a b c : ℕ} (A : (⟨3, ![a, b, c]⟩ : Shape).Idx → α) (r s u : ℕ) : α :=
  if h : r < a ∧ s < b ∧ u < c then A (ix3 ⟨r, h.1⟩ ⟨s, h.2.1⟩ ⟨u, h.2.2⟩) else 0

theorem at3_of_lt {a b c : ℕ} (A : (⟨3, ![a, b, c]⟩ : Shape).Idx → α) {r s u : ℕ} (hr : r < a) (hs : s < b) (hu : u < c) :
    at3 A r s u = A (ix3 ⟨r, hr⟩ ⟨s, hs⟩ ⟨u, hu⟩) := dif_pos ⟨hr, hs, hu⟩

/-- An entry of a rank-three array is the reading at the values of its three coordinates. -/
theorem apply_eq_at3 {a b c : ℕ} (A : (⟨3, ![a, b, c]⟩ : Shape).Idx → α) (j : (⟨3, ![a, b, c]⟩ : Shape).Idx) {r s u : ℕ}
    (hr : (j 0).val = r) (hs : (j 1).val = s) (hu : (j 2).val = u) : A j = at3 A r s u := by
  subst hr hs hu
  rw [at3_of_lt A (j 0).isLt (j 1).isLt (j 2).isLt]
  exact congrArg A (eq_ix3 j)

end Cert.Lib.NatRead

end
-- ==== Proof.Spec.lean ====
/-
  What the two programs compute, as functions of the argument arrays over the extended reals, read at natural-number
  coordinates (an entry outside the extents reads zero, which no formula below ever meets).

  The input `x` is N × 2·Dh with N = 4096 and Dh = 512: its column block `h` (columns h·512 … h·512+511) is head
  `h`'s N × Dh slice. Each head has three Dh × Dh weight matrices. For one head:

    proj  W (n, d) = Σ_c x(n, h·512 + c) · W(d, c)                       the projection  x_h · Wᵀ
    ktv   (d, e)   = Σ_n proj Wk (n, d) · proj Wv (n, e)                 Kᵀ · V, a Dh × Dh matrix
    headK (n, e)   = Σ_d proj Wq (n, d) · ktv (d, e)                     Q · (Kᵀ · V)

  is the arrangement that forms the small matrix Kᵀ·V first, and

    projR W (d, n) = Σ_c W(d, c) · x(n, h·512 + c)                       the projection  W · x_hᵀ
    score (n, m)   = Σ_d projR Wq (d, n) · projR Wk (d, m)               Q · Kᵀ, an N × N matrix
    headR (n, e)   = Σ_m score (n, m) · projR Wv (e, m)                  (Q · Kᵀ) · V

  the arrangement that forms the N × N score matrix first. The result lays the two heads side by side:
  entry (n, j) is head 0 at (n, j) for j < 512 and head 1 at (n, j − 512) otherwise.
-/
import Idealize.ShloMosaic.Lib.ValueIdx
import Idealize.ShloMosaic.PureOps.Ideal
import proofs.«138260_j15470472200192_2_alg».proof.Proof.LibNatRead

noncomputable section

namespace Cert.Attn

open Idealize.ShloMosaic Idealize.ShloMosaic.ValueIdx Cert.Lib.NatRead

/-- An N × 2·Dh array of extended reals. -/
abbrev XArr : Type := (⟨2, ![4096, 1024]⟩ : Shape).Idx → EReal
/-- A Dh × Dh array of extended reals. -/
abbrev WArr : Type := (⟨2, ![512, 512]⟩ : Shape).Idx → EReal

/-- Head `h`'s projection x_h · Wᵀ at (n, d). -/
def proj (x : XArr) (W : WArr) (h n d : ℕ) : EReal :=
  ∑ c : Fin 512, at2 x n (h * 512 + c.val) * at2 W d c.val

/-- Head `h`'s Kᵀ · V at (d, e): the sum over all N rows. -/
def ktv (x : XArr) (Wk Wv : WArr) (h d e : ℕ) : EReal :=
  ∑ n : Fin 4096, proj x Wk h n.val d * proj x Wv h n.val e

/-- Head `h`'s Q · (Kᵀ · V) at (n, e). -/
def headK (x : XArr) (Wq Wk Wv : WArr) (h n e : ℕ) : EReal :=
  ∑ d : Fin 512, proj x Wq h n d.val * ktv x Wk Wv h d.val e

/-- Head `h`'s projection W · x_hᵀ at (d, n). -/
def projR (x : XArr) (W : WArr) (h d n : ℕ) : EReal :=
  ∑ c : Fin 512, at2 W d c.val * at2 x n (h * 512 + c.val)

/-- Head `h`'s score matrix Q · Kᵀ at (n, m). -/
def score (x : XArr) (Wq Wk : WArr) (h n m : ℕ) : EReal :=
  ∑ d : Fin 512, projR x Wq h d.val n * projR x Wk h d.val m

/-- Head `h`'s (Q · Kᵀ) · V at (n, e). -/
def headR (x : XArr) (Wq Wk Wv : WArr) (h n e : ℕ) : EReal :=
  ∑ m : Fin 4096, score x Wq Wk h n m.val * projR x Wv h e m.val

/-- The two heads side by side, each formed as Q · (Kᵀ · V). -/
def outK (x : XArr) (Wq1 Wq2 Wk1 Wk2 Wv1 Wv2 : WArr) : XArr := fun i =>
  if (i 1).val < 512 then headK x Wq1 Wk1 Wv1 0 (i 0).val (i 1).val
  else headK x Wq2 Wk2 Wv2 1 (i 0).val ((i 1).val - 512)

/-- The two heads side by side, each formed as (Q · Kᵀ) · V. -/
def outR (x : XArr) (Wq1 Wq2 Wk1 Wk2 Wv1 Wv2 : WArr) : XArr := fun i =>
  if (i 1).val < 512 then headR x Wq1 Wk1 Wv1 0 (i 0).val (i 1).val
  else headR x Wq2 Wk2 Wv2 1 (i 0).val ((i 1).val - 512)

end Cert.Attn

end
-- ==== Proof.KSpec.lean ====
/-
  The intermediate arrays of the kernel's arrangement, as functions of the arrays they are computed from, over
  natural-number coordinates. The three per-head weight matrices are stacked into [2, Dh, Dh] arrays; Q is laid out
  N × 2·Dh (head h in columns h·512 … h·512+511); the accumulated Kᵀ·V matrices form a [2, Dh, Dh] array; the result
  is Q's head slices multiplied by the head's matrix.
-/
import proofs.«138260_j15470472200192_2_alg».proof.Proof.Spec

noncomputable section

namespace Cert.Attn

open Idealize.ShloMosaic Idealize.ShloMosaic.ValueIdx Cert.Lib.NatRead

/-- A [2, Dh, Dh] array of extended reals. -/
abbrev W3Arr : Type := (⟨3, ![2, 512, 512]⟩ : Shape).Idx → EReal

/-- Two Dh × Dh matrices stacked along a new leading axis. -/
def stack (A B : WArr) : W3Arr := fun j =>
  if (j 0).val = 0 then at2 A (j 1).val (j 2).val else at2 B (j 1).val (j 2).val

/-- Q = x_h · Wq_hᵀ for both heads, laid out N × 2·Dh: entry (n, h·512 + d). -/
def qArr (x : XArr) (wq : W3Arr) : XArr := fun i =>
  ∑ cc : Fin 512, at2 x (i 0).val ((i 1).val / 512 * 512 + cc.val) * at3 wq ((i 1).val / 512) ((i 1).val % 512) cc.val

/-- Kᵀ · V for both heads: entry (h, d, e), the sum over all N rows. -/
def mArr (x : XArr) (wk wv : W3Arr) : W3Arr := fun j =>
  ∑ n : Fin 4096, (∑ cc : Fin 512, at2 x n.val ((j 0).val * 512 + cc.val) * at3 wk (j 0).val (j 1).val cc.val)
    * (∑ cc : Fin 512, at2 x n.val ((j 0).val * 512 + cc.val) * at3 wv (j 0).val (j 2).val cc.val)

/-- Q's head slice times the head's matrix, laid out N × 2·Dh: entry (n, h·512 + e). -/
def oArr (q : XArr) (m : W3Arr) : XArr := fun i =>
  ∑ d : Fin 512, at2 q (i 0).val ((i 1).val / 512 * 512 + d.val) * at3 m ((i 1).val / 512) d.val ((i 1).val % 512)

end Cert.Attn

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibMatmulNT.lean ====
/-
  A matrix product x·Wᵀ on the TensorCore, read at an entry from its dimension record's lists.

  An m×K block multiplied by an n×K block (the right factor stored one row per output column) contracts the trailing
  axis of both factors: contracting lists [1] and [1], kept lists [0] and [0], no batch axes. Into a zero accumulator,
  at exact arithmetic, entry (p, q) is Σₖ left(p, k)·right(q, k), whatever float formats the factors carry. The index
  facts of the record (which coordinate of which factor an output index and a contraction position go to) are derived
  here once from the six lists, so that for a printed record every hypothesis of `nt_entry` is `rfl`.
-/
import proofs.«138260_j15470472200192_2_alg».proof.Proof.LibRowOps
import Idealize.ShloMosaic.Lib.ValueIdx
import Idealize.ShloMosaic.PureOps.Ideal.Laws

noncomputable section

namespace Cert.Lib.MatmulNT

open Idealize.ShloMosaic Idealize.ShloMosaic.TcCoe Idealize.ShloMosaic.ValueIdx

section TrailingContraction
variable {m K n : Nat} (D : DotDims ⟨2, ![m, K]⟩ ⟨2, ![n, K]⟩ ⟨2, ![m, n]⟩)

/-- One contracted axis. -/
theorem nt_contr_rank (hc : D.lhsContracting = [1]) : D.contr.rank = 1 := by
  rw [D.rank_contr, hc]; rfl

/-- Its extent is the left factor's column count. -/
theorem nt_contr_size (hc : D.lhsContracting = [1]) :
    D.contr.size ⟨0, by rw [nt_contr_rank D hc]; exact Nat.one_pos⟩ = K := by
  rw [D.size_contr 0 (by rw [hc]; exact Nat.one_pos)]
  simp only [hc]
  rfl

/-- The left factor's row is the output's row. -/
theorem nt_lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem nt_lhs_col (hc : D.lhsContracting = [1]) (i : (⟨2, ![m, n]⟩ : Shape).Idx) (c : D.contr.Idx) :
    (D.lhsIdx i c 1).val = (c ⟨0, by rw [nt_contr_rank D hc]; exact Nat.one_pos⟩).val :=
  D.lhsIdx_val_of_single hc i c

/-- The right factor's row is the output's column. -/
theorem nt_rhs_row (hb : D.lhsBatch = []) (hb' : D.rhsBatch = []) (hn : D.lhsNonContracting = [0])
    (hn' : D.rhsNonContracting = [0]) (i : (⟨2, ![m, n]⟩ : Shape).Idx) (c : D.contr.Idx) :
    (D.rhsIdx i c 0).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

/-- The right factor's column is the contraction position. -/
theorem nt_rhs_col (hc : D.lhsContracting = [1]) (hc' : D.rhsContracting = [1]) (i : (⟨2, ![m, n]⟩ : Shape).Idx)
    (c : D.contr.Idx) : (D.rhsIdx i c 1).val = (c ⟨0, by rw [nt_contr_rank D hc]; exact Nat.one_pos⟩).val :=
  D.rhsIdx_val_of_single hc' i c

/-- A product x·Wᵀ into a zero accumulator, whatever its factors' formats, read at entry (p, q). -/
theorem nt_entry (hb : D.lhsBatch = []) (hb' : D.rhsBatch = []) (hn : D.lhsNonContracting = [0])
    (hn' : D.rhsNonContracting = [0]) (hc : D.lhsContracting = [1]) (hc' : D.rhsContracting = [1]) {φ₁ φ₂ : FTy}
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) :=
  Cert.Lib.RowOps.matmul_nt_zero_ix2 D (nt_contr_rank D hc) (nt_contr_size D hc) (nt_lhs_row D hb hn) (nt_lhs_col D hc)
    (nt_rhs_row D hb hb' hn hn') (nt_rhs_col D hc hc') lhs rhs p q

end TrailingContraction

end Cert.Lib.MatmulNT

end
-- ==== Proof.LibMatmulTT.lean ====
/-
  A matrix product that contracts the ROWS of both factors, read at an entry. A K×m matrix and a K×n matrix,
  multiplied on the TensorCore into a zero accumulator with dimension numbers that contract axis 0 of each factor
  (the product Aᵀ·B, no factor transposed in memory), have at entry (p, q) the sum over k of left (k, p) · right (k, q).
  The index facts are derived once from the lists of the dimension record.
-/
import Idealize.ShloMosaic.Lib.ValueIdx
import Idealize.ShloMosaic.PureOps.Ideal.Laws

noncomputable section

namespace Cert.Lib.MatmulTT

open Idealize.ShloMosaic Idealize.ShloMosaic.TcCoe Idealize.SL.Sem Idealize.ShloMosaic.ValueIdx

/-- The dimension numbers of the product Aᵀ·B: contract the rows of both factors; the left factor's columns are the
    output's rows, the right factor's columns the output's columns; no batch axes. -/
structure IsRowContraction {m K n : Nat} (D : DotDims ⟨2, ![K, m]⟩ ⟨2, ![K, n]⟩ ⟨2, ![m, n]⟩) : Prop where
  lhsBatch : D.lhsBatch = []
  rhsBatch : D.rhsBatch = []
  lhsNon : D.lhsNonContracting = [1]
  rhsNon : D.rhsNonContracting = [1]
  lhsContr : D.lhsContracting = [0]
  rhsContr : D.rhsContracting = [0]

variable {m K n : Nat} {D : DotDims ⟨2, ![K, m]⟩ ⟨2, ![K, n]⟩ ⟨2, ![m, n]⟩}

/-- One contracted axis. -/
theorem contr_rank (hD : IsRowContraction D) : D.contr.rank = 1 := by
  rw [D.rank_contr, hD.lhsContr]; rfl

/-- Its extent is the factors' common row count. -/
theorem contr_size (hD : IsRowContraction D) :
    D.contr.size ⟨0, by rw [contr_rank hD]; exact Nat.one_pos⟩ = K := by
  rw [D.size_contr 0 (by rw [hD.lhsContr]; exact Nat.one_pos)]
  simp only [hD.lhsContr]
  rfl

/-- The left factor's column is the output's row. -/
theorem lhs_col (hD : IsRowContraction D) (i : (⟨2, ![m, n]⟩ : Shape).Idx) (c : D.contr.Idx) :
    (D.lhsIdx i c 1).val = (i 0).val := by
  unfold DotDims.lhsIdx
  rw [dif_neg (by rw [hD.lhsBatch]; exact List.not_mem_nil), dif_pos (by rw [hD.lhsNon]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hD.lhsBatch, hD.lhsNon])

/-- The right factor's column is the output's column. -/
theorem rhs_col (hD : IsRowContraction D) (i : (⟨2, ![m, n]⟩ : Shape).Idx) (c : D.contr.Idx) :
    (D.rhsIdx i c 1).val = (i 1).val := by
  unfold DotDims.rhsIdx
  rw [dif_neg (by rw [hD.rhsBatch]; exact List.not_mem_nil), dif_pos (by rw [hD.rhsNon]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hD.lhsBatch, hD.lhsNon, hD.rhsNon])

/-- The product into a zero accumulator at entry (p, q): the sum over k of left (k, p) · right (k, q), whatever
    float formats the factors carry (at exact arithmetic a format is only a label). -/
theorem matmul_entry (hD : IsRowContraction D) {φ₁ φ₂ : FTy} (lhs : FVec Ideal ⟨2, ![K, m]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 k p) * rhs (ix2 k q) := by
  refine (Ideal.matmul_constant_zero_apply D none lhs rhs (ix2 p q)).trans ?_
  rw [← Equiv.sum_comp (contrEquiv1 D K (contr_rank hD) (contr_size hD)).symm]
  refine Finset.sum_congr rfl fun k _ => ?_
  have hk := contrEquiv1_symm_val D K (contr_rank hD) (contr_size hD) k
  have el : D.lhsIdx (ix2 p q) ((contrEquiv1 D K (contr_rank hD) (contr_size hD)).symm k) = ix2 k p :=
    funext fun a => Fin.ext (by
      match a with
      | ⟨0, _⟩ => exact (D.lhsIdx_val_of_single hD.lhsContr _ _).trans hk
      | ⟨1, _⟩ => exact lhs_col hD _ _)
  have er : D.rhsIdx (ix2 p q) ((contrEquiv1 D K (contr_rank hD) (contr_size hD)).symm k) = ix2 k q :=
    funext fun a => Fin.ext (by
      match a with
      | ⟨0, _⟩ => exact (D.rhsIdx_val_of_single hD.rhsContr _ _).trans hk
      | ⟨1, _⟩ => exact rhs_col hD _ _)
  rw [el, er]

end Cert.Lib.MatmulTT

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.Payloads.lean ====
/-
  The kernel's arithmetic read at an entry, at exact arithmetic.

  Each value the kernel stores is, entry by entry, a finite sum of products of the values it loaded: a projection
  x·Wᵀ (the weight stored one row per output column), the running sum Kᵀ·V of the products of two projections over the
  rows of a tile, and the product Q·M of the stored projection by the finished sum. At exact arithmetic a change of float
  format is the identity, a cast that drops or adds a leading unit axis re-reads the same entry, and a product into a
  zero accumulator is the bare sum over its one contracted axis. Beside them: the host's stacking of two matrices into
  one array with a leading axis of extent two, read at an entry.
-/
import proofs.«138260_j15470472200192_2_alg».proof.Proof.Gen.KernelIdeal.Skeleton
import proofs.«138260_j15470472200192_2_alg».proof.Proof.LibRowOps
import proofs.«138260_j15470472200192_2_alg».proof.Proof.LibMatmulNT
import proofs.«138260_j15470472200192_2_alg».proof.Proof.LibMatmulTT
import proofs.«138260_j15470472200192_2_alg».proof.Proof.LibDotEntry
import proofs.«138260_j15470472200192_2_alg».proof.Proof.LibMatDims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.TcCoe Idealize.ShloMosaic.ValueIdx Cert.KernelIdeal Cert.KernelIdeal.Gen
open Cert.Lib.MatmulNT

/-! ## A change of float format is the identity -/

/-- At exact arithmetic a narrowing of the float format keeps every entry. -/
theorem truncf_apply {s : Shape} {φ : FTy} (ψ : FTy) (x : FVec Ideal s φ) (h : ψ.bits < φ.bits) (i : s.Idx) :
    (truncf ψ x h i : EReal) = x i := rfl

/-! ## The projection x·Wᵀ -/

/-- Pointwise addition, at an entry. -/
theorem addf_apply {s : Shape} {φ : FTy} (x y : FVec Ideal s φ) (i : s.Idx) : (addf x y i : EReal) = x i + y i := rfl

/-- A projection at (p, q): row p of the tile against row q of the weight, the weight read under its leading unit
    axis. -/
theorem proj_entry (v3 : Vec Ideal S512x512 .f32) (w : Vec Ideal S1x512x512 .f32) (p q : Fin 512) :
    matmul dot_S512x512_S512x512_S512x512_1_1_0_0_n_n none (truncf .bf16 v3 bitsLt_bf16_f32)
        (truncf .bf16 (shapeCast S512x512 w shapeCasts_S1x512x512_S512x512) bitsLt_bf16_f32)
        (constant (F := Ideal) S512x512 .f32 0x00000000#32) (ix2 p q)
      = ∑ c : Fin 512, v3 (ix2 p c) * w (ix3 (0 : Fin 1) q c) := by
  refine (nt_entry (m := 512) (K := 512) (n := 512) dot_S512x512_S512x512_S512x512_1_1_0_0_n_n rfl rfl rfl rfl rfl rfl _ _ p q).trans ?_
  refine Finset.sum_congr rfl fun c _ => ?_
  exact congrArg (v3 (ix2 p c) * ·) (shapeCast_1ab_ab_apply w _ q c)

/-- The stored projection at (p, q): row p of the tile against row q of the weight. -/
theorem pay5_entry (v3 : Vec Ideal S512x512 .f32) (v5 : Vec Ideal S1x512x512 .f32) (p q : Fin 512) :
    k0_pay5 (F := Ideal) v3 v5 (ix2 p q) = ∑ c : Fin 512, v3 (ix2 p c) * v5 (ix3 (0 : Fin 1) q c) := by
  unfold k0_pay5 k0_pay3
  exact (truncf_apply .bf16 _ bitsLt_bf16_f32 (ix2 p q)).trans (proj_entry v3 v5 p q)

/-! ## The output tile Q·M -/

/-- The output tile at (p, e): row p of the stored projection against column e of the finished sum. -/
theorem k1_pay1_entry (v0 : Vec Ideal S512x512 .bf16) (v2 : Vec Ideal S1x512x512 .f32) (p e : Fin 512) :
    k1_pay1 (F := Ideal) v0 v2 (ix2 p e) = ∑ d : Fin 512, v0 (ix2 p d) * v2 (ix3 (0 : Fin 1) d e) := by
  unfold k1_pay1
  refine (Cert.Lib.DotEntry.matmul_zero_ix2 (m := 512) (K := 512) (n := 512) dot_S512x512_S512x512_S512x512_1_0_0_1_n_n
    (Cert.Lib.MatDims.contr_rank _ rfl) (Cert.Lib.MatDims.contr_size _ rfl) (Cert.Lib.MatDims.lhs_row _ rfl rfl)
    (Cert.Lib.MatDims.lhs_col _ rfl) (Cert.Lib.MatDims.rhs_row _ rfl rfl) (Cert.Lib.MatDims.rhs_col _ rfl rfl rfl rfl)
    _ _ p e).trans ?_
  refine Finset.sum_congr rfl fun d _ => ?_
  exact congrArg₂ (· * ·) (congrFun (shapeCast_self v0 _) (ix2 p d)) (shapeCast_1ab_ab_apply v2 _ d e)

/-! ## The finished sum written back, and the sum's first value -/

/-- The finished sum is stored under a leading unit axis entry for entry. -/
theorem pay1_entry (v30 : Vec Ideal S512x512 .f32) (d e : Fin 512) :
    k0_pay1 (F := Ideal) v30 (ix3 (0 : Fin 1) d e) = v30 (ix2 d e) := by
  unfold k0_pay1
  exact shapeCast_ab_1ab_apply v30 _ 0 d e

/-- The running sum starts at zero everywhere. -/
theorem pay2_entry (j : S512x512.Idx) : k0_pay2 (F := Ideal) j = 0 := by
  unfold k0_pay2
  refine (congrFun (shapeCast_self _ _) j).trans ?_
  exact Ideal.ofBits_zero_f32

/-! ## Two matrices stacked along a new leading axis -/

/-- A matrix broadcast to a leading unit axis reads, at (0, d, c), the matrix at (d, c). -/
theorem lift_entry (A : (⟨S512x512, .f32⟩ : BufTy).Contents (Elt Ideal)) (d c : Fin 512) :
    broadcastInDim S1x512x512 ![1, 2] bcast_S512x512_S1x512x512_1_2 A (ix3 (0 : Fin 1) d c) = A (ix2 d c) :=
  broadcastInDim_apply ![1, 2] bcast_S512x512_S1x512x512_1_2 A (ix3 (0 : Fin 1) d c) (ix2 d c) fun a => by
    match a with
    | ⟨0, _⟩ => rfl
    | ⟨1, _⟩ => rfl

/-- the host's stacking of two Dh×Dh matrices into [2,Dh,Dh] (broadcast_in_dim to [1,Dh,Dh], then concatenate along axis 0) -/
theorem stack_entry (A B : (⟨S512x512, .f32⟩ : BufTy).Contents (Elt Ideal)) (h : Fin 2) (d c : Fin 512) :
    concatenate S2x512x512 0 [⟨S1x512x512, broadcastInDim S1x512x512 ![1, 2] bcast_S512x512_S1x512x512_1_2 A⟩,
        ⟨S1x512x512, broadcastInDim S1x512x512 ![1, 2] bcast_S512x512_S1x512x512_1_2 B⟩] concatenates_S1x512x512_S1x512x512_S2x512x512_d0 (ix3 h d c)
      = if h.val = 0 then A (ix2 d c) else B (ix2 d c) := by
  by_cases h0 : h.val = 0
  · rw [if_pos h0]
    refine (concatenate_pair_apply_left (t := S2x512x512) (s₁ := S1x512x512) (s₂ := S1x512x512) (0 : Fin 3) _ _ concatenates_S1x512x512_S1x512x512_S2x512x512_d0 (ix3 h d c) rfl
      (ix3 (0 : Fin 1) d c) fun b => ?_).trans (lift_entry A d c)
    match b with
    | ⟨0, _⟩ => exact h0.symm
    | ⟨1, _⟩ => rfl
    | ⟨2, _⟩ => rfl
  · rw [if_neg h0]
    have h1 : h.val = 1 := by omega
    refine (concatenate_pair_apply_right (t := S2x512x512) (s₁ := S1x512x512) (s₂ := S1x512x512) (0 : Fin 3) _ _ concatenates_S1x512x512_S1x512x512_S2x512x512_d0 (ix3 h d c) rfl rfl
      (ix3 (0 : Fin 1) d c) (fun b hb => ?_) ?_).trans (lift_entry B d c)
    · match b with
      | ⟨0, _⟩ => exact absurd rfl hb
      | ⟨1, _⟩ => rfl
      | ⟨2, _⟩ => rfl
    · show 0 + 1 = h.val
      omega

/-! ## The running sum Kᵀ·V -/

/-- The running sum after a tile, at (d, e): what it held, plus the sum over the tile's rows of the products of the
    two projections' entries at (r, d) and (r, e). -/
theorem pay4_entry (v3 : Vec Ideal S512x512 .f32) (v8 v11 : Vec Ideal S1x512x512 .f32) (v19 : Vec Ideal S512x512 .f32) (d e : Fin 512) :
    k0_pay4 (F := Ideal) v3 v8 v11 v19 (ix2 d e)
      = v19 (ix2 d e) + ∑ r : Fin 512, (∑ c : Fin 512, v3 (ix2 r c) * v8 (ix3 (0 : Fin 1) d c)) * (∑ c : Fin 512, v3 (ix2 r c) * v11 (ix3 (0 : Fin 1) e c)) := by
  unfold k0_pay4 k0_pay3
  refine (congrFun (shapeCast_self _ _) (ix2 d e)).trans ?_
  refine (addf_apply _ _ (ix2 d e)).trans ?_
  refine congrArg (v19 (ix2 d e) + ·) ?_
  refine (Cert.Lib.MatmulTT.matmul_entry (m := 512) (K := 512) (n := 512) (D := dot_S512x512_S512x512_S512x512_0_0_1_1_n_n)
    ⟨rfl, rfl, rfl, rfl, rfl, rfl⟩ _ _ d e).trans ?_
  refine Finset.sum_congr rfl fun r _ => ?_
  exact congrArg₂ (· * ·) ((truncf_apply .bf16 _ bitsLt_bf16_f32 (ix2 r d)).trans (proj_entry v3 v8 r d))
    ((truncf_apply .bf16 _ bitsLt_bf16_f32 (ix2 r e)).trans (proj_entry v3 v11 r e))

end Cert.KernelIdeal.Pay

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.Value0.lean ====
/-
  What the first kernel leaves in its two output arrays.

  The grid has 2 heads × 8 row tiles, point t = head·8 + tile. At a point the kernel reads the tile of x at rows
  tile·512 …, columns head·512 … and the head's three weight matrices, writes the tile's projection by the query weight
  into block (tile, head) of the N × 2·Dh array Q, and adds the tile's Kᵀ·V product into a running sum that it copies,
  at the head's last tile, into block (head, 0, 0) of the [2, Dh, Dh] array M.

  Every point writes its block of Q back, and the blocks tile Q: entry (n, j) lies in the block of head j / 512 and
  tile n / 512, so Q ends holding x_h · Wq_hᵀ for both heads. M's window is written back only at a head's last tile,
  where the running sum is the sum over the head's eight tiles, each a sum over the tile's 512 rows, of the products
  K(row, d) · V(row, e); the eight blocks of 512 rows are the N = 4096 rows, so M ends holding Kᵀ·V for both heads.
-/
import proofs.«138260_j15470472200192_2_alg».proof.Proof.Data
import proofs.«138260_j15470472200192_2_alg».proof.Proof.KSpec
import proofs.«138260_j15470472200192_2_alg».proof.Proof.Payloads
import proofs.«138260_j15470472200192_2_alg».proof.Proof.LibNatRead
import proofs.«138260_j15470472200192_2_alg».proof.Proof.LibSumBlocks

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Lib.NatRead

variable (V : (c : Dev nD) → (b : Ref sig .tc) → Buf (Elt Ideal) ((c : Thread nD τ).loc b))

/-! ## The printed index maps over the grid

Point t = head·8 + tile. The N × 2·Dh windows (the input x and the stored projection) sit at block (tile, head); the
[2, Dh, Dh] windows (the stacked weights and the accumulated products) at block (head, 0, 0). -/

theorem idx0_0 : ∀ t : Fin cfg0.N, win0_0.index t (0 : Fin 2) = t.val % 8 ∧ win0_0.index t (1 : Fin 2) = t.val / 8 :=
  (by decide +kernel : ∀ t : Fin grid0.N, _)
theorem idx0_1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx0_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx0_4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx0_5 : ∀ t : Fin cfg0.N, win0_5.index t (0 : Fin 2) = t.val % 8 ∧ win0_5.index t (1 : Fin 2) = t.val / 8 :=
  (by decide +kernel : ∀ t : Fin grid0.N, _)

/-! ## The input blocks, read off their arrays at natural coordinates -/

/-- The tile of x at point t: rows tile·512 …, columns head·512 …. -/
theorem iblk0_0_apply (c : Dev nD) (t : Fin cfg0.N) (p cc : Fin 512) :
    (iblk0 V c 0 t : Vec Ideal S512x512 .f32) (ix2 p cc)
      = at2 (α := EReal) (a := 4096) (b := 1024) (V c main_arg0) (t.val % 8 * 512 + p.val) (t.val / 8 * 512 + cc.val) := by
  obtain ⟨e0, e1⟩ := idx0_0 t
  unfold iblk0
  rw [View.read_apply]
  show (V c main_arg0 : S4096x1024.Idx → EReal) (((cfg0.win 0).blk t).view.emb (ix2 p cc)) = _
  refine apply_eq_at2 (α := EReal) (a := 4096) (b := 1024) _ _ ?_ ?_
  · show win0_0.index t (0 : Fin 2) * 512 + 1 * p.val = _
    rw [e0]; omega
  · show win0_0.index t (1 : Fin 2) * 512 + 1 * cc.val = _
    rw [e1]; omega

/-- The head's query weight at point t. -/
theorem iblk0_1_apply (c : Dev nD) (t : Fin cfg0.N) (q cc : Fin 512) :
    (iblk0 V c 1 t : Vec Ideal S1x512x512 .f32) (ix3 (0 : Fin 1) q cc)
      = at3 (α := EReal) (a := 2) (b := 512) (c := 512) (V c main_v2) (t.val / 8) q.val cc.val := by
  obtain ⟨e0, e1, e2⟩ := idx0_1 t
  unfold iblk0
  rw [View.read_apply]
  show (V c main_v2 : S2x512x512.Idx → EReal) (((cfg0.win 1).blk t).view.emb (ix3 (0 : Fin 1) q cc)) = _
  refine apply_eq_at3 (α := EReal) (a := 2) (b := 512) (c := 512) _ _ ?_ ?_ ?_
  · show win0_1.index t (0 : Fin 3) * 1 + 1 * (0 : Fin 1).val = _
    rw [e0]; show t.val / 8 * 1 + 1 * 0 = _; omega
  · show win0_1.index t (1 : Fin 3) * 512 + 1 * q.val = _
    rw [e1]; omega
  · show win0_1.index t (2 : Fin 3) * 512 + 1 * cc.val = _
    rw [e2]; omega

/-! ## The stored projection Q -/

/-- The projection of a tile of x by a head's weight is the block of Q at that tile and head. -/
theorem payQ_at (x : Cert.Attn.XArr) (wq : Cert.Attn.W3Arr) (T : ℕ) (v3 : Vec Ideal S512x512 .f32) (v5 : Vec Ideal S1x512x512 .f32)
    (h3 : ∀ p cc : Fin 512, v3 (ix2 p cc) = at2 x (T % 8 * 512 + p.val) (T / 8 * 512 + cc.val))
    (h5 : ∀ q cc : Fin 512, v5 (ix3 (0 : Fin 1) q cc) = at3 wq (T / 8) q.val cc.val)
    (j : S512x512.Idx) (i : S4096x1024.Idx) (hi0 : (i 0).val = T % 8 * 512 + (j 0).val) (hi1 : (i 1).val = T / 8 * 512 + (j 1).val) :
    k0_pay5 (F := Ideal) v3 v5 j = Cert.Attn.qArr x wq i := by
  obtain ⟨p, q, rfl⟩ : ∃ (p q : Fin 512), j = ix2 p q := ⟨j 0, j 1, eq_ix2 j⟩
  have hi0' : (i 0).val = T % 8 * 512 + p.val := hi0
  have hi1' : (i 1).val = T / 8 * 512 + q.val := hi1
  have hq : q.val < 512 := q.isLt
  have e1 : (i 1).val / 512 = T / 8 := by rw [hi1']; omega
  have e2 : (i 1).val % 512 = q.val := by rw [hi1']; omega
  rw [Pay.pay5_entry]
  unfold Cert.Attn.qArr
  refine Finset.sum_congr rfl fun cc _ => ?_
  rw [h3, h5, hi0', e1, e2]

/-- What a point writes back through the projection's window is its block of Q. -/
theorem flushedQ_eq (c : Dev nD) (t : Fin cfg0.N) :
    (dat0 V c).flushed 5 t = ((cfg0.win 5).blk t).view.read (Elt Ideal) (Cert.Attn.qArr (V c main_arg0) (V c main_v2)) := by
  show (cfg0.win 5).cut (grid0.coords t) ((dat0 V c).after 5 t) = _
  rw [after0_5]
  obtain ⟨e0, e1⟩ := idx0_5 t
  funext y
  rw [View.read_apply]
  show k0_pay5 (F := Ideal) (iblk0 V c 0 t) (iblk0 V c 1 t) ((cfg0.win 5).xinj (grid0.coords t) y)
    = Cert.Attn.qArr (V c main_arg0) (V c main_v2) (((cfg0.win 5).blk t).view.emb y)
  refine payQ_at (V c main_arg0) (V c main_v2) t.val (iblk0 V c 0 t) (iblk0 V c 1 t) (iblk0_0_apply V c t) (iblk0_1_apply V c t)
    ((cfg0.win 5).xinj (grid0.coords t) y) (((cfg0.win 5).blk t).view.emb y) ?_ ?_
  · show win0_5.index t (0 : Fin 2) * 512 + 1 * (y 0).val = t.val % 8 * 512 + (y 0).val
    rw [e0]; omega
  · show win0_5.index t (1 : Fin 2) * 512 + 1 * (y 1).val = t.val / 8 * 512 + (y 1).val
    rw [e1]; omega

/-- An index of the N × 2·Dh array is in point t's block iff each coordinate is in the block's range. -/
theorem mem_blkQ (t : Fin cfg0.N) (i : S4096x1024.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v9_1).slice (win0_5.rect t)).set ↔ _
  rw [View.set_slice_whole, Rect.mem_set_unit]
  exact Iff.rfl

/-- Entry (n, j) of Q is in the block of the point with head j / 512 and tile n / 512. -/
theorem coverQ (i : S4096x1024.Idx) : ∃ t : Fin cfg0.N, (cfg0.win 5).flush t = true ∧ i ∈ ((cfg0.win 5).blk t).view.set := by
  have hN : cfg0.N = 16 := N_0
  have hi0 : (i 0).val < 4096 := (i 0).isLt
  have hi1 : (i 1).val < 1024 := (i 1).isLt
  refine ⟨⟨(i 1).val / 512 * 8 + (i 0).val / 512, by rw [hN]; omega⟩, flush0_5 _, ?_⟩
  rw [mem_blkQ]
  obtain ⟨e0, e1⟩ := idx0_5 ⟨(i 1).val / 512 * 8 + (i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e0]; dsimp only; omega
  | ⟨1, _⟩ =>
    show win0_5.index _ (1 : Fin 2) * 512 ≤ (i 1).val ∧ (i 1).val < win0_5.index _ (1 : Fin 2) * 512 + 512
    rw [e1]; dsimp only; omega

/-- The first kernel leaves Q = x_h · Wq_hᵀ, both heads side by side, in its second output array. -/
theorem finalQ (c : Dev nD) : (dat0 V c).arrAt 5 cfg0.N = Cert.Attn.qArr (V c main_arg0) (V c main_v2) :=
  (dat0 V c).arrAt_eq_of_cover 5 (Cert.Attn.qArr (V c main_arg0) (V c main_v2)) (fun t _ => flushedQ_eq V c t) coverQ

/-! ## The accumulated product Kᵀ·V -/

/-- The head's key weight at point t. -/
theorem iblk0_2_apply (c : Dev nD) (t : Fin cfg0.N) (q cc : Fin 512) :
    (iblk0 V c 2 t : Vec Ideal S1x512x512 .f32) (ix3 (0 : Fin 1) q cc)
      = at3 (α := EReal) (a := 2) (b := 512) (c := 512) (V c main_v5) (t.val / 8) q.val cc.val := by
  obtain ⟨e0, e1, e2⟩ := idx0_2 t
  unfold iblk0
  rw [View.read_apply]
  show (V c main_v5 : S2x512x512.Idx → EReal) (((cfg0.win 2).blk t).view.emb (ix3 (0 : Fin 1) q cc)) = _
  refine apply_eq_at3 (α := EReal) (a := 2) (b := 512) (c := 512) _ _ ?_ ?_ ?_
  · show win0_2.index t (0 : Fin 3) * 1 + 1 * (0 : Fin 1).val = _
    rw [e0]; show t.val / 8 * 1 + 1 * 0 = _; omega
  · show win0_2.index t (1 : Fin 3) * 512 + 1 * q.val = _
    rw [e1]; omega
  · show win0_2.index t (2 : Fin 3) * 512 + 1 * cc.val = _
    rw [e2]; omega

/-- The head's value weight at point t. -/
theorem iblk0_3_apply (c : Dev nD) (t : Fin cfg0.N) (q cc : Fin 512) :
    (iblk0 V c 3 t : Vec Ideal S1x512x512 .f32) (ix3 (0 : Fin 1) q cc)
      = at3 (α := EReal) (a := 2) (b := 512) (c := 512) (V c main_v8) (t.val / 8) q.val cc.val := by
  obtain ⟨e0, e1, e2⟩ := idx0_3 t
  unfold iblk0
  rw [View.read_apply]
  show (V c main_v8 : S2x512x512.Idx → EReal) (((cfg0.win 3).blk t).view.emb (ix3 (0 : Fin 1) q cc)) = _
  refine apply_eq_at3 (α := EReal) (a := 2) (b := 512) (c := 512) _ _ ?_ ?_ ?_
  · show win0_3.index t (0 : Fin 3) * 1 + 1 * (0 : Fin 1).val = _
    rw [e0]; show t.val / 8 * 1 + 1 * 0 = _; omega
  · show win0_3.index t (1 : Fin 3) * 512 + 1 * q.val = _
    rw [e1]; omega
  · show win0_3.index t (2 : Fin 3) * 512 + 1 * cc.val = _
    rw [e2]; omega

/-- Row n's term of head h's Kᵀ·V at (d, e): K(n, d) · V(n, e). -/
def kvTerm (x : Cert.Attn.XArr) (wk wv : Cert.Attn.W3Arr) (h d e n : ℕ) : EReal :=
  (∑ cc : Fin 512, at2 x n (h * 512 + cc.val) * at3 wk h d cc.val) * (∑ cc : Fin 512, at2 x n (h * 512 + cc.val) * at3 wv h e cc.val)

/-- Kᵀ·V at (h, d, e) is the sum of the rows' terms. -/
theorem mArr_apply (x : Cert.Attn.XArr) (wk wv : Cert.Attn.W3Arr) (j : S2x512x512.Idx) :
    Cert.Attn.mArr x wk wv j = ∑ n : Fin 4096, kvTerm x wk wv (j 0).val (j 1).val (j 2).val n.val := rfl

/-- A tile's product, over blocks that are the tile of x and the head's key and value weights, is the sum of the
    terms of the tile's 512 rows. -/
theorem tile_at (x : Cert.Attn.XArr) (wk wv : Cert.Attn.W3Arr) (T : ℕ) (v3 : Vec Ideal S512x512 .f32) (v8 v11 : Vec Ideal S1x512x512 .f32)
    (h3 : ∀ p cc : Fin 512, v3 (ix2 p cc) = at2 x (T % 8 * 512 + p.val) (T / 8 * 512 + cc.val))
    (h8 : ∀ q cc : Fin 512, v8 (ix3 (0 : Fin 1) q cc) = at3 wk (T / 8) q.val cc.val)
    (h11 : ∀ q cc : Fin 512, v11 (ix3 (0 : Fin 1) q cc) = at3 wv (T / 8) q.val cc.val) (d e : Fin 512) :
    (∑ r : Fin 512, (∑ cc : Fin 512, v3 (ix2 r cc) * v8 (ix3 (0 : Fin 1) d cc)) * (∑ cc : Fin 512, v3 (ix2 r cc) * v11 (ix3 (0 : Fin 1) e cc)))
      = ∑ r : Fin 512, kvTerm x wk wv (T / 8) d.val e.val (T % 8 * 512 + r.val) := by
  refine Finset.sum_congr rfl fun r _ => ?_
  unfold kvTerm
  refine congrArg₂ (· * ·) (Finset.sum_congr rfl fun cc _ => ?_) (Finset.sum_congr rfl fun cc _ => ?_)
  · rw [h3, h8]
  · rw [h3, h11]

/-- The running sum after point n (head n / 8, tile n % 8): the terms of the rows of the head's tiles 0 … n % 8. -/
theorem acc_rows (c : Dev nD) : ∀ (n : ℕ) (hn : n < cfg0.N) (d e : Fin 512),
    accAt V c n hn (ix2 d e)
      = ∑ s ∈ Finset.range (n % 8 + 1), ∑ r : Fin 512,
          kvTerm (V c main_arg0) (V c main_v5) (V c main_v8) (n / 8) d.val e.val (s * 512 + r.val) := by
  intro n
  induction n with
  | zero =>
    intro hn d e
    refine (congrFun (accAt_first V c ⟨0, hn⟩ rfl) (ix2 d e)).trans ?_
    refine (Pay.pay4_entry (iblk0 V c 0 ⟨0, hn⟩) (iblk0 V c 2 ⟨0, hn⟩) (iblk0 V c 3 ⟨0, hn⟩) (k0_pay2 (F := Ideal)) d e).trans ?_
    rw [Pay.pay2_entry, zero_add]
    refine (tile_at (V c main_arg0) (V c main_v5) (V c main_v8) 0 (iblk0 V c 0 ⟨0, hn⟩) (iblk0 V c 2 ⟨0, hn⟩) (iblk0 V c 3 ⟨0, hn⟩)
      (iblk0_0_apply V c ⟨0, hn⟩) (iblk0_2_apply V c ⟨0, hn⟩) (iblk0_3_apply V c ⟨0, hn⟩) d e).trans ?_
    rw [Finset.sum_range_one]
  | succ m ih =>
    intro hn d e
    by_cases h0 : (m + 1) % 8 = 0
    · refine (congrFun (accAt_first V c ⟨m + 1, hn⟩ h0) (ix2 d e)).trans ?_
      refine (Pay.pay4_entry (iblk0 V c 0 ⟨m + 1, hn⟩) (iblk0 V c 2 ⟨m + 1, hn⟩) (iblk0 V c 3 ⟨m + 1, hn⟩) (k0_pay2 (F := Ideal)) d e).trans ?_
      rw [Pay.pay2_entry, zero_add]
      refine (tile_at (V c main_arg0) (V c main_v5) (V c main_v8) (m + 1) (iblk0 V c 0 ⟨m + 1, hn⟩) (iblk0 V c 2 ⟨m + 1, hn⟩) (iblk0 V c 3 ⟨m + 1, hn⟩)
        (iblk0_0_apply V c ⟨m + 1, hn⟩) (iblk0_2_apply V c ⟨m + 1, hn⟩) (iblk0_3_apply V c ⟨m + 1, hn⟩) d e).trans ?_
      rw [h0, Finset.sum_range_one]
    · refine (congrFun (accAt_next V c ⟨m + 1, hn⟩ h0) (ix2 d e)).trans ?_
      refine (Pay.pay4_entry (iblk0 V c 0 ⟨m + 1, hn⟩) (iblk0 V c 2 ⟨m + 1, hn⟩) (iblk0 V c 3 ⟨m + 1, hn⟩)
        (accAt V c m (Nat.lt_of_succ_lt hn)) d e).trans ?_
      rw [ih (Nat.lt_of_succ_lt hn) d e]
      refine (congrArg (_ + ·) (tile_at (V c main_arg0) (V c main_v5) (V c main_v8) (m + 1) (iblk0 V c 0 ⟨m + 1, hn⟩) (iblk0 V c 2 ⟨m + 1, hn⟩) (iblk0 V c 3 ⟨m + 1, hn⟩)
        (iblk0_0_apply V c ⟨m + 1, hn⟩) (iblk0_2_apply V c ⟨m + 1, hn⟩) (iblk0_3_apply V c ⟨m + 1, hn⟩) d e)).trans ?_
      have e1 : (m + 1) % 8 = m % 8 + 1 := by omega
      have e2 : (m + 1) / 8 = m / 8 := by omega
      rw [e1, e2, Finset.sum_range_succ (fun s => ∑ r : Fin 512,
        kvTerm (V c main_arg0) (V c main_v5) (V c main_v8) (m / 8) d.val e.val (s * 512 + r.val)) (m % 8 + 1)]

/-- The finished sum, copied out at a head's last tile, is the block of Kᵀ·V of that head: the eight tiles of 512 rows
    are the 4096 rows. -/
theorem payM_at (x : Cert.Attn.XArr) (wk wv : Cert.Attn.W3Arr) (H : ℕ) (acc : Vec Ideal S512x512 .f32)
    (hacc : ∀ d e : Fin 512, acc (ix2 d e) = ∑ s ∈ Finset.range 8, ∑ r : Fin 512, kvTerm x wk wv H d.val e.val (s * 512 + r.val))
    (j : S1x512x512.Idx) (i : S2x512x512.Idx) (hi0 : (i 0).val = H) (hi1 : (i 1).val = (j 1).val) (hi2 : (i 2).val = (j 2).val) :
    k0_pay1 (F := Ideal) acc j = Cert.Attn.mArr x wk wv i := by
  obtain ⟨z, d, e, rfl⟩ : ∃ (z : Fin 1) (d e : Fin 512), j = ix3 z d e := ⟨j 0, j 1, j 2, eq_ix3 j⟩
  obtain rfl : z = 0 := Subsingleton.elim _ _
  have hi1' : (i 1).val = d.val := hi1
  have hi2' : (i 2).val = e.val := hi2
  rw [Pay.pay1_entry, hacc, mArr_apply, hi0, hi1', hi2',
    LibSumBlocks.sum_fin_nat_blocks 8 512 rfl (kvTerm x wk wv H d.val e.val)]
  exact LibSumBlocks.sum_range_eq_sum_fin 8 _ _ fun _ => rfl

/-- What a head's last tile writes back through the sum's window is the head's block of Kᵀ·V. -/
theorem flushedM_eq (c : Dev nD) (t : Fin cfg0.N) (hf : (cfg0.win 4).flush t = true) :
    (dat0 V c).flushed 4 t = ((cfg0.win 4).blk t).view.read (Elt Ideal) (Cert.Attn.mArr (V c main_arg0) (V c main_v5) (V c main_v8)) := by
  have h7 : t.val % 8 = 7 := (flush0_4 t).mp hf
  show (cfg0.win 4).cut (grid0.coords t) ((dat0 V c).after 4 t) = _
  rw [after0_4]
  obtain ⟨e0, e1, e2⟩ := idx0_4 t
  funext y
  rw [View.read_apply]
  show k0_pay1 (F := Ideal) (accAt V c t.val t.isLt) ((cfg0.win 4).xinj (grid0.coords t) y)
    = Cert.Attn.mArr (V c main_arg0) (V c main_v5) (V c main_v8) (((cfg0.win 4).blk t).view.emb y)
  have hy0 : (y 0).val < 1 := (y 0).isLt
  refine payM_at (V c main_arg0) (V c main_v5) (V c main_v8) (t.val / 8) (accAt V c t.val t.isLt) (fun d e => ?_)
    ((cfg0.win 4).xinj (grid0.coords t) y) (((cfg0.win 4).blk t).view.emb y) ?_ ?_ ?_
  · rw [acc_rows V c t.val t.isLt d e, h7]
  · show win0_4.index t (0 : Fin 3) * 1 + 1 * (y 0).val = t.val / 8
    rw [e0]; omega
  · show win0_4.index t (1 : Fin 3) * 512 + 1 * (y 1).val = (y 1).val
    rw [e1]; omega
  · show win0_4.index t (2 : Fin 3) * 512 + 1 * (y 2).val = (y 2).val
    rw [e2]; omega

/-- An index of the [2, Dh, Dh] array is in point t's block iff each coordinate is in the block's range. -/
theorem mem_blkM (t : Fin cfg0.N) (i : S2x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v9_0).slice (win0_4.rect t)).set ↔ _
  rw [View.set_slice_whole, Rect.mem_set_unit]
  exact Iff.rfl

/-- Entry (h, d, e) of Kᵀ·V is in the block written back at head h's last tile. -/
theorem coverM (i : S2x512x512.Idx) : ∃ t : Fin cfg0.N, (cfg0.win 4).flush t = true ∧ i ∈ ((cfg0.win 4).blk t).view.set := by
  have hN : cfg0.N = 16 := N_0
  have hi0 : (i 0).val < 2 := (i 0).isLt
  have hi1 : (i 1).val < 512 := (i 1).isLt
  have hi2 : (i 2).val < 512 := (i 2).isLt
  refine ⟨⟨(i 0).val * 8 + 7, by rw [hN]; omega⟩, (flush0_4 _).mpr (by dsimp only; omega), ?_⟩
  rw [mem_blkM]
  obtain ⟨e0, e1, e2⟩ := idx0_4 ⟨(i 0).val * 8 + 7, by rw [hN]; omega⟩
  intro a
  match a with
  | ⟨0, _⟩ =>
    show win0_4.index _ (0 : Fin 3) * 1 ≤ (i 0).val ∧ (i 0).val < win0_4.index _ (0 : Fin 3) * 1 + 1
    rw [e0]; dsimp only; omega
  | ⟨1, _⟩ =>
    show win0_4.index _ (1 : Fin 3) * 512 ≤ (i 1).val ∧ (i 1).val < win0_4.index _ (1 : Fin 3) * 512 + 512
    rw [e1]; omega
  | ⟨2, _⟩ =>
    show win0_4.index _ (2 : Fin 3) * 512 ≤ (i 2).val ∧ (i 2).val < win0_4.index _ (2 : Fin 3) * 512 + 512
    rw [e2]; omega

/-- The first kernel leaves Kᵀ·V, summed over all N rows, for both heads, in its first output array. -/
theorem finalM (c : Dev nD) : (dat0 V c).arrAt 4 cfg0.N = Cert.Attn.mArr (V c main_arg0) (V c main_v5) (V c main_v8) :=
  (dat0 V c).arrAt_eq_of_cover 4 (Cert.Attn.mArr (V c main_arg0) (V c main_v5) (V c main_v8)) (fun t hf => flushedM_eq V c t hf) coverM

end Cert.KernelIdeal.Fr

end
-- ==== Proof.Value1.lean ====
/-
  What the output kernel leaves in its output array.

  Grid point t = head·8 + tile writes back the 512 × 512 block (tile, head) of the N × 2·Dh output: the product of the
  Q array's block (tile, head) — rows tile·512 …, columns head·512 … — with the head's accumulated matrix, block
  (head, 0, 0) of the [2, Dh, Dh] array. Entry (p, e) of that product is the sum over d of Q (tile·512 + p, head·512 + d)
  times M (head, d, e), which is the result's entry (tile·512 + p, head·512 + e). The sixteen blocks tile the output:
  index (n, j) lies in the block of point (j / 512)·8 + n / 512.
-/
import proofs.«138260_j15470472200192_2_alg».proof.Proof.Data
import proofs.«138260_j15470472200192_2_alg».proof.Proof.KSpec
import proofs.«138260_j15470472200192_2_alg».proof.Proof.Payloads
import proofs.«138260_j15470472200192_2_alg».proof.Proof.LibNatRead

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Lib.NatRead Cert.Attn

/-- The printed index maps over the grid: point t = head·8 + tile reads block (tile, head) of the Q array and block
    (head, 0, 0) of the matrix array, and writes block (tile, head) of the output. -/
theorem idx_facts1 : ∀ t : Fin cfg1.N,
    win1_0.index t (0 : Fin 2) = t.val % 8 ∧ win1_0.index t (1 : Fin 2) = t.val / 8
    ∧ win1_1.index t (0 : Fin 3) = t.val / 8 ∧ win1_1.index t (1 : Fin 3) = 0 ∧ win1_1.index t (2 : Fin 3) = 0
    ∧ win1_2.index t (0 : Fin 2) = t.val % 8 ∧ win1_2.index t (1 : Fin 2) = t.val / 8 :=
  (by decide +kernel : ∀ t : Fin grid1.N, _)

/-- One block of the product, entry by entry: if the first factor holds block (i, h) of `q` and the second block
    (h, 0, 0) of `m`, the product's entry (p, e) is the result's entry (i·512 + p, h·512 + e). -/
theorem point_entry (q : XArr) (m : W3Arr) (x0 : Vec Ideal S512x512 .bf16) (x1 : Vec Ideal S1x512x512 .f32) (h i : ℕ)
    (h0 : ∀ p d : Fin 512, x0 (ix2 p d) = at2 q (i * 512 + p.val) (h * 512 + d.val))
    (h1 : ∀ d e : Fin 512, x1 (ix3 (0 : Fin 1) d e) = at3 m h d.val e.val)
    (p e : Fin 512) (j : (⟨2, ![4096, 1024]⟩ : Shape).Idx) (hj0 : (j 0).val = i * 512 + p.val) (hj1 : (j 1).val = h * 512 + e.val) :
    k1_pay1 (F := Ideal) x0 x1 (ix2 p e) = oArr q m j := by
  rw [Cert.KernelIdeal.Pay.k1_pay1_entry]
  unfold oArr
  have e1 : (j 1).val / 512 = h := by have := e.isLt; omega
  have e2 : (j 1).val % 512 = e.val := by have := e.isLt; omega
  rw [hj0, e1, e2]
  refine Finset.sum_congr rfl fun d _ => ?_
  rw [h0, h1]

variable (V : (c : Dev nD) → (b : Ref sig .tc) → Buf (Elt Ideal) ((c : Thread nD τ).loc b))

/-- The Q window's block at point t, entry (p, d): the Q array at (tile·512 + p, head·512 + d). -/
theorem iblk1_0_entry (c : Dev nD) (t : Fin cfg1.N) (p d : Fin 512) :
    iblk1 V c 0 t (ix2 p d) = at2 (α := EReal) (a := 4096) (b := 1024) (V c main_v9_1) (t.val % 8 * 512 + p.val) (t.val / 8 * 512 + d.val) := by
  obtain ⟨a0, a1, -⟩ := idx_facts1 t
  unfold iblk1
  rw [View.read_apply]
  refine apply_eq_at2 (α := EReal) (a := 4096) (b := 1024) (V c main_v9_1) _ ?_ ?_
  · show win1_0.index t (0 : Fin 2) * 512 + 1 * p.val = t.val % 8 * 512 + p.val
    rw [a0]; omega
  · show win1_0.index t (1 : Fin 2) * 512 + 1 * d.val = t.val / 8 * 512 + d.val
    rw [a1]; omega

/-- The matrix window's block at point t, entry (0, d, e): the matrix array at (head, d, e). -/
theorem iblk1_1_entry (c : Dev nD) (t : Fin cfg1.N) (d e : Fin 512) :
    iblk1 V c 1 t (ix3 (0 : Fin 1) d e) = at3 (α := EReal) (a := 2) (b := 512) (c := 512) (V c main_v9_0) (t.val / 8) d.val e.val := by
  obtain ⟨-, -, b0, b1, b2, -⟩ := idx_facts1 t
  unfold iblk1
  rw [View.read_apply]
  refine apply_eq_at3 (α := EReal) (a := 2) (b := 512) (c := 512) (V c main_v9_0) _ ?_ ?_ ?_
  · show win1_1.index t (0 : Fin 3) * 1 + 1 * 0 = t.val / 8
    rw [b0]; omega
  · show win1_1.index t (1 : Fin 3) * 512 + 1 * d.val = d.val
    rw [b1]; omega
  · show win1_1.index t (2 : Fin 3) * 512 + 1 * e.val = e.val
    rw [b2]; omega

/-- What point t writes back is block t of the result computed from the arrays the region finds. -/
theorem flushed1_eq (c : Dev nD) (t : Fin cfg1.N) :
    (dat1 V c).flushed 2 t = ((cfg1.win 2).blk t).view.read (Elt Ideal) (oArr (V c main_v9_1) (V c main_v9_0)) := by
  show (cfg1.win 2).cut (grid1.coords t) ((dat1 V c).after 2 t) = _
  rw [after1_2]
  obtain ⟨-, -, -, -, -, c0, c1⟩ := idx_facts1 t
  funext j
  rw [View.read_apply]
  have hj : j = ix2 (n0 := 512) (n1 := 512) (j 0) (j 1) := eq_ix2 (n0 := 512) (n1 := 512) j
  refine (congrArg (k1_pay1 (F := Ideal) (iblk1 V c 0 t) (iblk1 V c 1 t)) hj).trans ?_
  refine point_entry (V c main_v9_1) (V c main_v9_0) (iblk1 V c 0 t) (iblk1 V c 1 t) (t.val / 8) (t.val % 8)
    (iblk1_0_entry V c t) (iblk1_1_entry V c t) (j 0) (j 1) _ ?_ ?_
  · show win1_2.index t (0 : Fin 2) * 512 + 1 * (j 0).val = t.val % 8 * 512 + (j 0).val
    rw [c0]; omega
  · show win1_2.index t (1 : Fin 2) * 512 + 1 * (j 1).val = t.val / 8 * 512 + (j 1).val
    rw [c1]; omega

/-- An index of the output is in point t's block iff each coordinate is in the block's range on its axis. -/
theorem mem_blk1 (t : Fin cfg1.N) (i : S4096x1024.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v10).slice (win1_2.rect t)).set ↔ _
  rw [View.set_slice_whole, Rect.mem_set_unit]
  exact Iff.rfl

/-- Every index of the output lies in the block of some point: (n, j) in that of (j / 512)·8 + n / 512. -/
theorem cover1 (i : S4096x1024.Idx) :
    ∃ t : Fin cfg1.N, (cfg1.win 2).flush t = true ∧ i ∈ ((cfg1.win 2).blk t).view.set := by
  have hi0 : (i 0).val < 4096 := idx2_lt0 i
  have hi1 : (i 1).val < 1024 := idx2_lt1 i
  have hN : (i 1).val / 512 * 8 + (i 0).val / 512 < cfg1.N := by
    show (i 1).val / 512 * 8 + (i 0).val / 512 < grid1.N
    rw [N_1]; omega
  refine ⟨⟨(i 1).val / 512 * 8 + (i 0).val / 512, hN⟩, flush1_2 _, ?_⟩
  obtain ⟨-, -, -, -, -, c0, c1⟩ := idx_facts1 ⟨(i 1).val / 512 * 8 + (i 0).val / 512, hN⟩
  rw [mem_blk1]
  intro a
  match a with
  | ⟨0, _⟩ =>
    show win1_2.index _ (0 : Fin 2) * 512 ≤ (i 0).val ∧ (i 0).val < win1_2.index _ (0 : Fin 2) * 512 + 512
    rw [c0]
    show ((i 1).val / 512 * 8 + (i 0).val / 512) % 8 * 512 ≤ (i 0).val ∧ (i 0).val < ((i 1).val / 512 * 8 + (i 0).val / 512) % 8 * 512 + 512
    omega
  | ⟨1, _⟩ =>
    show win1_2.index _ (1 : Fin 2) * 512 ≤ (i 1).val ∧ (i 1).val < win1_2.index _ (1 : Fin 2) * 512 + 512
    rw [c1]
    show ((i 1).val / 512 * 8 + (i 0).val / 512) / 8 * 512 ≤ (i 1).val ∧ (i 1).val < ((i 1).val / 512 * 8 + (i 0).val / 512) / 8 * 512 + 512
    omega

/-- The output array after region 1: the Q array's head slices times the heads' accumulated matrices. -/
theorem final1 (V : (c : Dev nD) → (b : Ref sig .tc) → Buf (Elt Ideal) ((c : Thread nD τ).loc b)) (c : Dev nD) :
    (dat1 V c).arrAt 2 cfg1.N = Cert.Attn.oArr (V c main_v9_1) (V c main_v9_0) :=
  (dat1 V c).arrAt_eq_of_cover 2 _ (fun t _ => flushed1_eq V c t) cover1

end Cert.KernelIdeal.Fr

end
-- ==== Proof.StackArr.lean ====
/-
  Two matrices stacked along a new leading axis, as a whole array: the stacking the host performs (each matrix given a
  leading unit axis, the two joined along it) is the array whose entry (h, d, c) is the first matrix's (d, c) for
  h = 0 and the second's otherwise.
-/
import proofs.«138260_j15470472200192_2_alg».proof.Proof.Payloads
import proofs.«138260_j15470472200192_2_alg».proof.Proof.KSpec

noncomputable section

namespace Cert.KernelIdeal.Pay

open Idealize.ShloMosaic Idealize.ShloMosaic.TcCoe Idealize.ShloMosaic.ValueIdx Cert.KernelIdeal Cert.KernelIdeal.Gen
open Cert.Lib.NatRead

/-- The host's stacking of two Dh×Dh matrices, entry for entry the stacked array. -/
theorem stack_arr (A B : (⟨S512x512, .f32⟩ : BufTy).Contents (Elt Ideal)) :
    concatenate S2x512x512 0 [⟨S1x512x512, broadcastInDim S1x512x512 ![1, 2] bcast_S512x512_S1x512x512_1_2 A⟩,
        ⟨S1x512x512, broadcastInDim S1x512x512 ![1, 2] bcast_S512x512_S1x512x512_1_2 B⟩] concatenates_S1x512x512_S1x512x512_S2x512x512_d0
      = Cert.Attn.stack A B := by
  funext j
  refine (congrArg _ (eq_ix3 j)).trans ?_
  refine (stack_entry A B (j 0) (j 1) (j 2)).trans ?_
  unfold Cert.Attn.stack
  by_cases h0 : (j 0).val = 0
  · rw [if_pos h0, if_pos h0]
    exact (at2_of_lt A (j 1).isLt (j 2).isLt).symm
  · rw [if_neg h0, if_neg h0]
    exact (at2_of_lt B (j 1).isLt (j 2).isLt).symm

end Cert.KernelIdeal.Pay

end
-- ==== Proof.Compose.lean ====
/-
  The kernel's arrangement composed: the product of the stored projection Q by the accumulated matrix Kᵀ·V, each
  formed from the stacked weights, is head by head Q·(Kᵀ·V) of that head's own weights.

  Column j of the N × 2·Dh layout belongs to head j / 512 at offset j % 512, so for j < 512 the head is 0 and the offset
  j, and otherwise the head is 1 and the offset j − 512. Reading the stacked weights at head h selects that head's
  matrix, and every intermediate array, read at in-range coordinates, is its defining sum.
-/
import proofs.«138260_j15470472200192_2_alg».proof.Proof.KSpec
import proofs.«138260_j15470472200192_2_alg».proof.Proof.Spec
import proofs.«138260_j15470472200192_2_alg».proof.Proof.LibNatRead

noncomputable section

namespace Cert.Attn

open Idealize.ShloMosaic Idealize.ShloMosaic.ValueIdx Cert.Lib.NatRead

/-- The stacked array read at head h < 2: the first matrix for h = 0, the second otherwise. -/
theorem at3_stack (A B : WArr) (h : ℕ) (hh : h < 2) (d c : Fin 512) :
    at3 (stack A B) h d.val c.val = if h = 0 then at2 A d.val c.val else at2 B d.val c.val :=
  at3_of_lt (stack A B) hh d.isLt c.isLt

theorem at3_stack_zero (A B : WArr) (d c : Fin 512) : at3 (stack A B) 0 d.val c.val = at2 A d.val c.val :=
  (at3_stack A B 0 (by omega) d c).trans (if_pos rfl)

theorem at3_stack_one (A B : WArr) (d c : Fin 512) : at3 (stack A B) 1 d.val c.val = at2 B d.val c.val :=
  (at3_stack A B 1 (by omega) d c).trans (if_neg (by omega))

/-- Q read at row n and column h·512 + d: head h's projection sum against row d of the stacked weight's layer h. -/
theorem at2_qArr (x : XArr) (wq : W3Arr) (h : ℕ) (hh : h < 2) (n : ℕ) (hn : n < 4096) (d : Fin 512) :
    at2 (qArr x wq) n (h * 512 + d.val)
      = ∑ cc : Fin 512, at2 x n (h * 512 + cc.val) * at3 wq h d.val cc.val := by
  have hd := d.isLt
  have hc : h * 512 + d.val < 1024 := by omega
  have e1 : (h * 512 + d.val) / 512 = h := by omega
  have e2 : (h * 512 + d.val) % 512 = d.val := by omega
  refine (at2_of_lt (qArr x wq) hn hc).trans ?_
  show ∑ cc : Fin 512, at2 x n ((h * 512 + d.val) / 512 * 512 + cc.val)
      * at3 wq ((h * 512 + d.val) / 512) ((h * 512 + d.val) % 512) cc.val = _
  rw [e1, e2]

/-- The accumulated matrix read at (h, d, e): the sum over all rows of the products of the two projections. -/
theorem at3_mArr (x : XArr) (wk wv : W3Arr) (h : ℕ) (hh : h < 2) (d e : Fin 512) :
    at3 (mArr x wk wv) h d.val e.val
      = ∑ n : Fin 4096, (∑ cc : Fin 512, at2 x n.val (h * 512 + cc.val) * at3 wk h d.val cc.val)
          * (∑ cc : Fin 512, at2 x n.val (h * 512 + cc.val) * at3 wv h e.val cc.val) :=
  at3_of_lt (mArr x wk wv) hh d.isLt e.isLt

/-- One head: if layer h of each stacked weight reads as that head's matrix, the product of Q's head slice by the
    head's accumulated matrix is Q·(Kᵀ·V) of the head's matrices. -/
theorem head_eq (x : XArr) (wq wk wv : W3Arr) (Wq Wk Wv : WArr) (h : ℕ) (hh : h < 2)
    (hq : ∀ d c : Fin 512, at3 wq h d.val c.val = at2 Wq d.val c.val)
    (hk : ∀ d c : Fin 512, at3 wk h d.val c.val = at2 Wk d.val c.val)
    (hv : ∀ d c : Fin 512, at3 wv h d.val c.val = at2 Wv d.val c.val)
    (n : ℕ) (hn : n < 4096) (e : Fin 512) :
    ∑ d : Fin 512, at2 (qArr x wq) n (h * 512 + d.val) * at3 (mArr x wk wv) h d.val e.val
      = headK x Wq Wk Wv h n e.val := by
  unfold headK ktv proj
  refine Finset.sum_congr rfl fun d _ => ?_
  refine congrArg₂ (· * ·) ?_ ?_
  · refine (at2_qArr x wq h hh n hn d).trans ?_
    exact Finset.sum_congr rfl fun c _ => congrArg (at2 x n (h * 512 + c.val) * ·) (hq d c)
  · refine (at3_mArr x wk wv h hh d e).trans ?_
    refine Finset.sum_congr rfl fun m _ => ?_
    refine congrArg₂ (· * ·) ?_ ?_
    · exact Finset.sum_congr rfl fun c _ => congrArg (at2 x m.val (h * 512 + c.val) * ·) (hk d c)
    · exact Finset.sum_congr rfl fun c _ => congrArg (at2 x m.val (h * 512 + c.val) * ·) (hv e c)

/-- The kernel's arrangement over the stacked weights is the two heads' Q·(Kᵀ·V) side by side. -/
theorem compose (x : XArr) (Wq1 Wq2 Wk1 Wk2 Wv1 Wv2 : WArr) :
    oArr (qArr x (stack Wq1 Wq2)) (mArr x (stack Wk1 Wk2) (stack Wv1 Wv2)) = outK x Wq1 Wq2 Wk1 Wk2 Wv1 Wv2 := by
  funext i
  have h0 : (i 0).val < 4096 := (i 0).isLt
  have h1 : (i 1).val < 1024 := (i 1).isLt
  unfold oArr outK
  by_cases hlt : (i 1).val < 512
  · have eH : (i 1).val / 512 = 0 := by omega
    have eE : (i 1).val % 512 = (i 1).val := by omega
    rw [if_pos hlt, eH, eE]
    exact head_eq x _ _ _ Wq1 Wk1 Wv1 0 (by omega) (at3_stack_zero Wq1 Wq2) (at3_stack_zero Wk1 Wk2)
      (at3_stack_zero Wv1 Wv2) (i 0).val h0 ⟨(i 1).val, hlt⟩
  · have eH : (i 1).val / 512 = 1 := by omega
    have eE : (i 1).val % 512 = (i 1).val - 512 := by omega
    rw [if_neg hlt, eH, eE]
    exact head_eq x _ _ _ Wq2 Wk2 Wv2 1 (by omega) (at3_stack_one Wq1 Wq2) (at3_stack_one Wk1 Wk2)
      (at3_stack_one Wv1 Wv2) (i 0).val h0 ⟨(i 1).val - 512, by omega⟩

end Cert.Attn

end
-- ==== Proof.KernelValue.lean ====
/-
  What the kernel's program leaves in its result array, at exact arithmetic: the host operations stack the per-head
  weight matrices; the first region leaves the Q array and the accumulated Kᵀ·V matrices; the second region multiplies
  them; composed, the result is `outK` of the seven argument arrays.
-/
import proofs.«138260_j15470472200192_2_alg».proof.Proof.Main
import proofs.«138260_j15470472200192_2_alg».proof.Proof.Value0
import proofs.«138260_j15470472200192_2_alg».proof.Proof.Value1
import proofs.«138260_j15470472200192_2_alg».proof.Proof.StackArr
import proofs.«138260_j15470472200192_2_alg».proof.Proof.Compose
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Attn Cert.KernelIdeal.Pay

variable (m : (ℓ : Loc nD τ sig) → Buf (Elt Ideal) ℓ)

/-! ## What region 0 finds: the arguments as launched, the weights stacked -/

theorem V1_arg0 (c : Dev nD) : V1 m c main_arg0 = m ((c : Thread nD τ).loc main_arg0) := W1_of m c main_arg0 (by decide)

theorem V1_v2 (c : Dev nD) :
    (V1 m c main_v2 : S2x512x512.Idx → EReal) = stack (m ((c : Thread nD τ).loc main_arg1)) (m ((c : Thread nD τ).loc main_arg2)) := by
  refine Eq.trans ?_ (stack_arr _ _)
  show StableHlo.after hostOps0 (fun b => m (c, b)) (Proc.devRef .tc main_v2) = _
  after_results

theorem V1_v5 (c : Dev nD) :
    (V1 m c main_v5 : S2x512x512.Idx → EReal) = stack (m ((c : Thread nD τ).loc main_arg3)) (m ((c : Thread nD τ).loc main_arg4)) := by
  refine Eq.trans ?_ (stack_arr _ _)
  show StableHlo.after hostOps0 (fun b => m (c, b)) (Proc.devRef .tc main_v5) = _
  after_results

theorem V1_v8 (c : Dev nD) :
    (V1 m c main_v8 : S2x512x512.Idx → EReal) = stack (m ((c : Thread nD τ).loc main_arg5)) (m ((c : Thread nD τ).loc main_arg6)) := by
  refine Eq.trans ?_ (stack_arr _ _)
  show StableHlo.after hostOps0 (fun b => m (c, b)) (Proc.devRef .tc main_v8) = _
  after_results

/-! ## The result array -/

theorem result_eq (c : Dev nD) :
    (dat1 (V2 m) c).arrAt 2 cfg1.N
      = outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [final1 (V2 m) c]
  rw [show V2 m c main_v9_1 = (dat0 (V1 m) c).arrAt 5 cfg0.N from W2_arr m c 5,
    show V2 m c main_v9_0 = (dat0 (V1 m) c).arrAt 4 cfg0.N from W2_arr m c 4,
    finalQ (V1 m) c, finalM (V1 m) c, V1_arg0 m c, V1_v2 m c, V1_v5 m c, V1_v8 m c]
  exact compose _ _ _ _ _ _ _

end Cert.KernelIdeal.Fr

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.RefSpec.lean ====
/-
  The reference program's result, read entry by entry.

  The reference forms, for each head h, the transposed slice x_hᵀ (c, n) = x (n, h·512 + c) of the input, the three
  projections W · x_hᵀ, the N × N score matrix Q · Kᵀ (contracting the leading axis of both projections), and
  (Q · Kᵀ) · V (contracting the trailing axis of both operands); the two heads are laid side by side. Each stage is
  a finite sum over its contracted axis of products of the stage before, so entry by entry the stages are
  `projR`, `score` and `headR`, and the whole result is `outR`.
-/
import proofs.«138260_j15470472200192_2_alg».proof.Proof.Gen.ReferenceIdeal.Read
import proofs.«138260_j15470472200192_2_alg».proof.Proof.Spec
import proofs.«138260_j15470472200192_2_alg».proof.Proof.LibNatRead
import proofs.«138260_j15470472200192_2_alg».proof.Proof.LibJoinCols

noncomputable section

namespace Cert.Attn.Ref

open Idealize.ShloMosaic Idealize.ShloMosaic.ValueIdx Cert.Lib.NatRead Cert.ReferenceIdeal Cert.ReferenceIdeal.Read Cert.Attn

/-- Head 0's transposed slice at (c, n) is x (n, 0·512 + c). -/
theorem slice0_apply (x : XArr) (j : S512x4096.Idx) :
    val_main_v1 (F := Ideal) x j = at2 x (j 1).val (0 * 512 + (j 0).val) := by
  rw [val_main_v1_apply, val_main_v0_apply]
  exact apply_eq_at2 x _ rfl (by show (j 0).val = 0 * 512 + (j 0).val; omega)

/-- Head 1's transposed slice at (c, n) is x (n, 1·512 + c). -/
theorem slice1_apply (x : XArr) (j : S512x4096.Idx) :
    val_main_v2 (F := Ideal) x j = at2 x (j 1).val (1 * 512 + (j 0).val) := by
  rw [val_main_v2_apply, val_main_v0_apply]
  exact apply_eq_at2 x _ rfl (by show 512 + (j 0).val = 1 * 512 + (j 0).val; omega)

/-- The projection W · x_0ᵀ at (d, n). -/
theorem proj_v3_apply (x : XArr) (W : WArr) (j : S512x4096.Idx) :
    val_main_v3 (F := Ideal) x W j = projR x W 0 (j 0).val (j 1).val := by
  rw [val_main_v3_apply]
  unfold projR
  refine Finset.sum_congr rfl fun k _ => ?_
  rw [slice0_apply]
  exact congrArg (· * _) (apply_eq_at2 W _ rfl rfl)

/-- The projection W · x_0ᵀ at (d, n). -/
theorem proj_v4_apply (x : XArr) (W : WArr) (j : S512x4096.Idx) :
    val_main_v4 (F := Ideal) x W j = projR x W 0 (j 0).val (j 1).val := by
  rw [val_main_v4_apply]
  unfold projR
  refine Finset.sum_congr rfl fun k _ => ?_
  rw [slice0_apply]
  exact congrArg (· * _) (apply_eq_at2 W _ rfl rfl)

/-- The projection W · x_0ᵀ at (d, n). -/
theorem proj_v5_apply (x : XArr) (W : WArr) (j : S512x4096.Idx) :
    val_main_v5 (F := Ideal) x W j = projR x W 0 (j 0).val (j 1).val := by
  rw [val_main_v5_apply]
  unfold projR
  refine Finset.sum_congr rfl fun k _ => ?_
  rw [slice0_apply]
  exact congrArg (· * _) (apply_eq_at2 W _ rfl rfl)

/-- The projection W · x_1ᵀ at (d, n). -/
theorem proj_v8_apply (x : XArr) (W : WArr) (j : S512x4096.Idx) :
    val_main_v8 (F := Ideal) x W j = projR x W 1 (j 0).val (j 1).val := by
  rw [val_main_v8_apply]
  unfold projR
  refine Finset.sum_congr rfl fun k _ => ?_
  rw [slice1_apply]
  exact congrArg (· * _) (apply_eq_at2 W _ rfl rfl)

/-- The projection W · x_1ᵀ at (d, n). -/
theorem proj_v9_apply (x : XArr) (W : WArr) (j : S512x4096.Idx) :
    val_main_v9 (F := Ideal) x W j = projR x W 1 (j 0).val (j 1).val := by
  rw [val_main_v9_apply]
  unfold projR
  refine Finset.sum_congr rfl fun k _ => ?_
  rw [slice1_apply]
  exact congrArg (· * _) (apply_eq_at2 W _ rfl rfl)

/-- The projection W · x_1ᵀ at (d, n). -/
theorem proj_v10_apply (x : XArr) (W : WArr) (j : S512x4096.Idx) :
    val_main_v10 (F := Ideal) x W j = projR x W 1 (j 0).val (j 1).val := by
  rw [val_main_v10_apply]
  unfold projR
  refine Finset.sum_congr rfl fun k _ => ?_
  rw [slice1_apply]
  exact congrArg (· * _) (apply_eq_at2 W _ rfl rfl)

/-- The score matrix Q · Kᵀ of head 0 at (n, m): the leading axes of the two projections are contracted. -/
theorem score_v6_apply (x : XArr) (Wq Wk : WArr) (j : S4096x4096.Idx) :
    val_main_v6 (F := Ideal) x Wq Wk j = score x Wq Wk 0 (j 0).val (j 1).val := by
  rw [val_main_v6_apply]
  unfold score
  refine Finset.sum_congr rfl fun k _ => ?_
  rw [proj_v3_apply, proj_v4_apply]

/-- The score matrix Q · Kᵀ of head 1 at (n, m): the leading axes of the two projections are contracted. -/
theorem score_v11_apply (x : XArr) (Wq Wk : WArr) (j : S4096x4096.Idx) :
    val_main_v11 (F := Ideal) x Wq Wk j = score x Wq Wk 1 (j 0).val (j 1).val := by
  rw [val_main_v11_apply]
  unfold score
  refine Finset.sum_congr rfl fun k _ => ?_
  rw [proj_v8_apply, proj_v9_apply]

/-- (Q · Kᵀ) · V of head 0 at (n, e): the trailing axes of the score matrix and of V's projection are contracted. -/
theorem head_v7_apply (x : XArr) (Wq Wk Wv : WArr) (j : S4096x512.Idx) :
    val_main_v7 (F := Ideal) x Wq Wk Wv j = headR x Wq Wk Wv 0 (j 0).val (j 1).val := by
  rw [val_main_v7_apply]
  unfold headR
  refine Finset.sum_congr rfl fun k _ => ?_
  rw [score_v6_apply, proj_v5_apply]

/-- (Q · Kᵀ) · V of head 1 at (n, e): the trailing axes of the score matrix and of V's projection are contracted. -/
theorem head_v12_apply (x : XArr) (Wq Wk Wv : WArr) (j : S4096x512.Idx) :
    val_main_v12 (F := Ideal) x Wq Wk Wv j = headR x Wq Wk Wv 1 (j 0).val (j 1).val := by
  rw [val_main_v12_apply]
  unfold headR
  refine Finset.sum_congr rfl fun k _ => ?_
  rw [score_v11_apply, proj_v10_apply]

/-- The reference's result is the two heads' (Q · Kᵀ) · V side by side. -/
theorem value_eq (x : XArr) (Wq1 Wq2 Wk1 Wk2 Wv1 Wv2 : WArr) :
    val_main_v13 (F := Ideal) x Wq1 Wq2 Wk1 Wk2 Wv1 Wv2 = outR x Wq1 Wq2 Wk1 Wk2 Wv1 Wv2 := by
  funext i
  unfold val_main_v13 outR
  by_cases hk : (i 1).val < 512
  · rw [if_pos hk]
    refine ((congrArg _ (eq_ix2 i)).trans (Cert.Lib.JoinCols.concat_cols_left _ _ _ (i 0) (i 1) hk)).trans ?_
    exact head_v7_apply x Wq1 Wk1 Wv1 _
  · rw [if_neg hk]
    have hge : 512 ≤ (i 1).val := Nat.le_of_not_lt hk
    have hb : (i 1).val - 512 < 512 := by
      have h1 : (i 1).val < 1024 := idx2_lt1 i
      omega
    refine ((congrArg _ (eq_ix2 i)).trans (Cert.Lib.JoinCols.concat_cols_right _ _ _ (i 0) (i 1) hge hb)).trans ?_
    exact head_v12_apply x Wq2 Wk2 Wv2 _

open Idealize.ShloMosaic.TcCoe Idealize.SL.Sem in
/-- Every weakly fair execution of the reference ends with its result buffer holding `outR` of the seven arguments'
    launch contents, the arguments unchanged. -/
theorem run_outR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Attn.outR (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v13_eq _ _ _ _ _ _ _).trans (value_eq _ _ _ _ _ _ _)), (h c).2⟩)
    (Cert.ReferenceIdeal.Value.run (F := Ideal) m ρ)

end Cert.Attn.Ref

end
-- ==== Proof.LibRealPatterns.lean ====
/-
  Float patterns and finite sums as real numbers inside the extended reals.

  An IEEE-style pattern whose exponent field is not all ones denotes a real number, and a positive one when moreover
  its sign bit is clear and its exponent field is not zero (a normal number). The inclusion of the reals into the
  extended reals commutes with finite sums and with the maximum, so an expression built from real entries by sums,
  products and maxima is again the inclusion of a real.
-/
import Idealize.ShloMosaic.PureOps.Ideal
import Mathlib.Algebra.BigOperators.Fin

noncomputable section

namespace Cert.Lib.RealPatterns

open Idealize.ShloMosaic

/-- The inclusion of the reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals commutes with the maximum. -/
theorem coe_max (a b : ℝ) : ((max a b : ℝ) : EReal) = max (a : EReal) (b : EReal) :=
  EReal.coe_strictMono.monotone.map_max

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A pattern with sign bit clear and exponent field neither zero nor all ones denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  refine ⟨_, ?_, rfl⟩
  simp only [Bool.false_eq_true, if_false, one_mul]
  positivity

end Cert.Lib.RealPatterns

end
-- ==== Proof.Algebra.lean ====
/-
  The algebraic law: for arrays whose entries are all real numbers, forming the small matrix Kᵀ·V first and forming
  the N × N score matrix first give the same result.

  Over the extended reals multiplication does not distribute over addition at the infinities, so the law is proved
  over the reals and carried across the inclusion. Reading a real array through the inclusion is the inclusion of
  reading it, the inclusion commutes with products and with finite sums, so each projection, the matrix Kᵀ·V, the
  score matrix and both results are inclusions of the corresponding real expressions. Over the reals, with
  P(n, d) = Σ_c x(n, c)·Wq(d, c), K(m, d) and V(m, e) likewise,

    Σ_d P(n, d) · (Σ_m K(m, d) · V(m, e)) = Σ_m (Σ_d P(n, d) · K(m, d)) · V(m, e)

  by distributing both products over the sums, exchanging the two summations, and associativity. The two orders of
  the factors inside a projection differ by commutativity only.
-/
import proofs.«138260_j15470472200192_2_alg».proof.Proof.Spec
import proofs.«138260_j15470472200192_2_alg».proof.Proof.LibRealPatterns
import Mathlib.Algebra.BigOperators.Ring.Finset
import Mathlib.Tactic.Ring

noncomputable section

namespace Cert.Attn

open Idealize.ShloMosaic Idealize.ShloMosaic.ValueIdx Cert.Lib.NatRead Cert.Lib.RealPatterns

/-- Reading the inclusion of a real matrix at natural coordinates is the inclusion of reading the real matrix. -/
theorem at2_coe {a b : ℕ} (A : (⟨2, ![a, b]⟩ : Shape).Idx → ℝ) (r c : ℕ) :
    at2 (fun i => ((A i : ℝ) : EReal)) r c = ((at2 A r c : ℝ) : EReal) := by
  unfold at2
  split_ifs
  · rfl
  · exact EReal.coe_zero.symm

/-- An N × 2·Dh array of reals. -/
abbrev XArrR : Type := (⟨2, ![4096, 1024]⟩ : Shape).Idx → ℝ
/-- A Dh × Dh array of reals. -/
abbrev WArrR : Type := (⟨2, ![512, 512]⟩ : Shape).Idx → ℝ

/-- Head `h`'s real projection x_h · Wᵀ at (n, d). -/
def projRe (x : XArrR) (W : WArrR) (h n d : ℕ) : ℝ :=
  ∑ c : Fin 512, at2 x n (h * 512 + c.val) * at2 W d c.val

/-- The projection x_h · Wᵀ of real arrays is the inclusion of the real projection. -/
theorem proj_coe (x : XArrR) (W : WArrR) (h n d : ℕ) :
    proj (fun i => ((x i : ℝ) : EReal)) (fun i => ((W i : ℝ) : EReal)) h n d = ((projRe x W h n d : ℝ) : EReal) := by
  unfold proj projRe
  rw [← coe_sum]
  refine Finset.sum_congr rfl fun c _ => ?_
  rw [at2_coe, at2_coe, EReal.coe_mul]

/-- The projection W · x_hᵀ of real arrays at (d, n) is the inclusion of the real projection at (n, d). -/
theorem projR_coe (x : XArrR) (W : WArrR) (h d n : ℕ) :
    projR (fun i => ((x i : ℝ) : EReal)) (fun i => ((W i : ℝ) : EReal)) h d n = ((projRe x W h n d : ℝ) : EReal) := by
  unfold projR projRe
  rw [← coe_sum]
  refine Finset.sum_congr rfl fun c _ => ?_
  rw [at2_coe, at2_coe, EReal.coe_mul, mul_comm]

/-- The law over the reals: Σ_d P(n,d)·(Σ_m K(m,d)·V(m,e)) = Σ_m (Σ_d P(n,d)·K(m,d))·V(m,e). -/
theorem real_law {D N : ℕ} (P : Fin D → ℝ) (K : Fin N → Fin D → ℝ) (V : Fin N → ℝ) :
    (∑ d : Fin D, P d * ∑ m : Fin N, K m d * V m) = ∑ m : Fin N, (∑ d : Fin D, P d * K m d) * V m := by
  simp_rw [Finset.mul_sum, Finset.sum_mul]
  rw [Finset.sum_comm]
  refine Finset.sum_congr rfl fun m _ => Finset.sum_congr rfl fun d _ => ?_
  ring

/-- For real-entried arrays, Q · (Kᵀ · V) and (Q · Kᵀ) · V agree at every entry of every head. -/
theorem headK_eq_headR_coe (x : XArrR) (Wq Wk Wv : WArrR) (h n e : ℕ) :
    headK (fun i => ((x i : ℝ) : EReal)) (fun i => ((Wq i : ℝ) : EReal)) (fun i => ((Wk i : ℝ) : EReal))
        (fun i => ((Wv i : ℝ) : EReal)) h n e
      = headR (fun i => ((x i : ℝ) : EReal)) (fun i => ((Wq i : ℝ) : EReal)) (fun i => ((Wk i : ℝ) : EReal))
        (fun i => ((Wv i : ℝ) : EReal)) h n e := by
  have hK : headK (fun i => ((x i : ℝ) : EReal)) (fun i => ((Wq i : ℝ) : EReal)) (fun i => ((Wk i : ℝ) : EReal))
        (fun i => ((Wv i : ℝ) : EReal)) h n e
      = ((∑ d : Fin 512, projRe x Wq h n d.val * ∑ m : Fin 4096, projRe x Wk h m.val d.val * projRe x Wv h m.val e : ℝ) : EReal) := by
    unfold headK ktv
    rw [← coe_sum]
    refine Finset.sum_congr rfl fun d _ => ?_
    rw [EReal.coe_mul, ← coe_sum, proj_coe]
    refine congrArg _ (Finset.sum_congr rfl fun m _ => ?_)
    rw [proj_coe, proj_coe, EReal.coe_mul]
  have hR : headR (fun i => ((x i : ℝ) : EReal)) (fun i => ((Wq i : ℝ) : EReal)) (fun i => ((Wk i : ℝ) : EReal))
        (fun i => ((Wv i : ℝ) : EReal)) h n e
      = ((∑ m : Fin 4096, (∑ d : Fin 512, projRe x Wq h n d.val * projRe x Wk h m.val d.val) * projRe x Wv h m.val e : ℝ) : EReal) := by
    unfold headR score
    rw [← coe_sum]
    refine Finset.sum_congr rfl fun m _ => ?_
    rw [EReal.coe_mul, ← coe_sum, projR_coe]
    refine congrArg (· * _) (Finset.sum_congr rfl fun d _ => ?_)
    rw [projR_coe, projR_coe, EReal.coe_mul]
  rw [hK, hR]
  exact congrArg _ (real_law (fun d => projRe x Wq h n d.val) (fun m d => projRe x Wk h m.val d.val)
    (fun m => projRe x Wv h m.val e))

/-- An array all of whose entries are real is the inclusion of a real array. -/
theorem exists_real_array {ι : Type} (A : ι → EReal) (hA : ∀ i, ∃ r : ℝ, A i = (r : EReal)) :
    ∃ B : ι → ℝ, A = fun i => ((B i : ℝ) : EReal) := by
  choose B hB using hA
  exact ⟨B, funext hB⟩

/-- For finite inputs the two arrangements of the two-head product agree. -/
theorem outK_eq_outR (x : XArr) (Wq1 Wq2 Wk1 Wk2 Wv1 Wv2 : WArr)
    (hx : ∀ i, ∃ r : ℝ, x i = (r : EReal)) (hq1 : ∀ i, ∃ r : ℝ, Wq1 i = (r : EReal)) (hq2 : ∀ i, ∃ r : ℝ, Wq2 i = (r : EReal))
    (hk1 : ∀ i, ∃ r : ℝ, Wk1 i = (r : EReal)) (hk2 : ∀ i, ∃ r : ℝ, Wk2 i = (r : EReal))
    (hv1 : ∀ i, ∃ r : ℝ, Wv1 i = (r : EReal)) (hv2 : ∀ i, ∃ r : ℝ, Wv2 i = (r : EReal)) :
    outK x Wq1 Wq2 Wk1 Wk2 Wv1 Wv2 = outR x Wq1 Wq2 Wk1 Wk2 Wv1 Wv2 := by
  obtain ⟨xr, rfl⟩ := exists_real_array x hx
  obtain ⟨q1, rfl⟩ := exists_real_array Wq1 hq1
  obtain ⟨q2, rfl⟩ := exists_real_array Wq2 hq2
  obtain ⟨k1, rfl⟩ := exists_real_array Wk1 hk1
  obtain ⟨k2, rfl⟩ := exists_real_array Wk2 hk2
  obtain ⟨v1, rfl⟩ := exists_real_array Wv1 hv1
  obtain ⟨v2, rfl⟩ := exists_real_array Wv2 hv2
  funext i
  unfold outK outR
  split_ifs
  · exact headK_eq_headR_coe xr q1 k1 v1 0 _ _
  · exact headK_eq_headR_coe xr q2 k2 v2 1 _ _

end Cert.Attn

end
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.Finite.lean ====
/-
  Finiteness of the inputs, read back from the precondition.

  The precondition is the conjunction, over the seven argument arrays, of "every entry's absolute value is strictly
  below the value of the pattern with an all-ones exponent field and a zero significand", each "for every entry" being
  a reduction by conjunction over both axes into a single bit, and the claim states that the bit is one.

  Over the extended reals that pattern denotes +∞ and the absolute value of x is max(x, −x). A conjunction that is
  one has both its operands one; a reduction by conjunction into a single bit that is one has every element one; and
  max(x, −x) < +∞ rules out x = +∞ (the maximum is then +∞) and x = −∞ (−x is then +∞), leaving a real x.
-/
import proofs.«138260_j15470472200192_2_alg».proof.Pre_finite_inputs
import proofs.«138260_j15470472200192_2_alg».proof.Proof.Gen.Pre_finite_inputs
import proofs.«138260_j15470472200192_2_alg».proof.Proof.LibFiniteInputs
import Idealize.ShloMosaic.Lib.ReduceAll
import Idealize.ShloMosaic.Lib.ValueIdx
import Idealize.ShloMosaic.PureOps.Ideal

noncomputable section

namespace Cert.Attn

open Idealize.ShloMosaic Cert.Lib.FiniteInputs

/-- The precondition gives that every entry of every argument array is a real number. -/
theorem real_of_pre [Cert.Pre_finite_inputs.Facts]
    (a0 : FVec Ideal Cert.Pre_finite_inputs.S4096x1024 .f32) (a1 a2 a3 a4 a5 a6 : FVec Ideal Cert.Pre_finite_inputs.S512x512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ValueIdx.ix0
  unfold Cert.Pre_finite_inputs.fn Cert.Pre_finite_inputs.fn_part1 at h0
  dsimp only [andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_lt_inf a0 _ _ _ _ _ e0, real_of_all_lt_inf a1 _ _ _ _ _ e1, real_of_all_lt_inf a2 _ _ _ _ _ e2,
    real_of_all_lt_inf a3 _ _ _ _ _ e3, real_of_all_lt_inf a4 _ _ _ _ _ e4, real_of_all_lt_inf a5 _ _ _ _ _ e5,
    real_of_all_lt_inf a6 _ _ _ _ _ e6⟩

end Cert.Attn

end
-- ==== Proof.lean ====
/-
  Two programs for two-head linear attention without softmax, on x : N × 2·Dh (N = 4096, Dh = 512) and three
  Dh × Dh weight matrices per head. Per head, with Q = x_h·Wqᵀ, K = x_h·Wkᵀ, V = x_h·Wvᵀ:
  the kernel computes Q · (Kᵀ · V), accumulating the Dh × Dh matrix Kᵀ·V over eight row tiles of 512 in a first
  pipelined region and multiplying by Q in a second; the reference computes (Q · Kᵀ) · V through the N × N score
  matrix. Over the extended reals the two agree when every input entry is a real number: both are the triple sum
  Σ_m Σ_d Q(n,d)·K(m,d)·V(m,e), and moving a factor across a finite sum needs distributivity, which holds on the reals.
  The precondition says exactly that every entry is finite.

  The frames of the two kernel programs are the run of @main as three segments (host operations, region 0, region 1);
  the reference's frame and value are its generated run read back.
-/
import proofs.«138260_j15470472200192_2_alg».proof.Defs
import proofs.«138260_j15470472200192_2_alg».proof.Proof.Gen.Kernel
import proofs.«138260_j15470472200192_2_alg».proof.Proof.Gen.KernelIdeal
import proofs.«138260_j15470472200192_2_alg».proof.Proof.Gen.ReferenceIdeal
import proofs.«138260_j15470472200192_2_alg».proof.Proof.Gen.Pre_finite_inputs
import proofs.«138260_j15470472200192_2_alg».proof.Proof.Gen.ReferenceIdeal.Run
import proofs.«138260_j15470472200192_2_alg».proof.Proof.Gen.ReferenceIdeal.Read
import proofs.«138260_j15470472200192_2_alg».proof.Proof.Bits.Main
import proofs.«138260_j15470472200192_2_alg».proof.Proof.KernelValue
import proofs.«138260_j15470472200192_2_alg».proof.Proof.RefSpec
import proofs.«138260_j15470472200192_2_alg».proof.Proof.Algebra
import proofs.«138260_j15470472200192_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with `outK` of the (agreeing) argument arrays: the kernel's by its run read back, the
    reference's because its arrangement `outR` equals `outK` on real-entried arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.outK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)), ?_, ?_⟩
  · exact (θ_run Cert.KernelIdeal.defs _ _).mono (fun _ h c => ⟨(h c).1.trans (Cert.KernelIdeal.Fr.result_eq m c), (h c).2⟩)
      (Cert.KernelIdeal.Fr.run_value m ρ)
  · refine (θ_run Cert.ReferenceIdeal.defs _ _).mono (fun _ h c => ⟨(h c).1.trans ?_, (h c).2⟩) (Cert.Attn.Ref.run_outR m' ρ')
    obtain ⟨h0, h1, h2, h3, h4, h5, h6⟩ := Cert.Attn.real_of_pre _ _ _ _ _ _ _ (hpre c)
    rw [(hagree c).1, (hagree c).2.1, (hagree c).2.2.1, (hagree c).2.2.2.1, (hagree c).2.2.2.2.1, (hagree c).2.2.2.2.2.1, (hagree c).2.2.2.2.2.2]
    exact (Cert.Attn.outK_eq_outR _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
